-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x128, .f32⟩
  | .hbm, ⟨25, _⟩ => ⟨S_, .f32⟩
  | .hbm, ⟨26, _⟩ => ⟨S8192, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S128x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x128, .f32⟩
  | .hbm, ⟨47, _⟩ => ⟨S_, .f32⟩
  | .hbm, ⟨48, _⟩ => ⟨S8192, .f32⟩
  | .hbm, ⟨49, _⟩ => ⟨S8192x128, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S1x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S128x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_cst_13 : Ref sig .tc := ⟨.hbm, 72, rfl⟩
abbrev main_v56 : Ref sig .tc := ⟨.hbm, 73, rfl⟩
abbrev main_cst_14 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody2.lean ====
/-
  Launch 2 of the tile-sum kernel, its body at one grid point.

  The body first decides whether the point is the grid's first (both coordinates zero): there it resets the 1×1
  accumulator to zero. Then, at every point, it loads the two 1024×128 tiles, reads the accumulator back, adds the
  tile pair's sum to it and stores the result. So there are two cases: at the first point the accumulator's old
  contents are never used; at every other point the new contents are a function of the old ones.
  Each case's run is stated for any whole staging buffers, together with the list of stores it ends with.
-/
import proofs.«145707_j71536975282442_1_alg».proof.Proof.Gen.Kernel.Launch
import proofs.«145707_j71536975282442_1_alg».proof.Proof.Gen.Kernel.Skeleton
import proofs.«145707_j71536975282442_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the two grid coordinates. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 of the 64 and nowhere else. -/
theorem hcond2 : ∀ t : Fin cfg2.N, cond2 (grid2.coords t) ↔ t.val % 64 = 0 :=
  (by decide +kernel : ∀ t : Fin grid2.N, cond2 (grid2.coords t) ↔ t.val % 64 = 0)

/-- One staging buffer of the accumulator window, through which its contents are stated. -/
abbrev VO2 : View sig .tc .vmem S1x1 .f32 := (Memref.whole cc2_stg2_0 : Memref sig .tc .vmem S1x1 .f32).view

/-- Each window's current staging memref at point `t`, and its wholeness. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

set_option maxHeartbeats 1000000 in
/-- The first point: whatever the accumulator's buffer holds, the body runs to the end, leaves the two tiles as they
    were and the accumulator's buffer with the listed stores written (the reset, then the first tile pair's sum). -/
noncomputable def run2_first (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond2 i) (x0 : Vec F S1024x128 .f32) (x1 : Vec F S1024x128 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Every other point: from the accumulator's buffer at `xo`, the body leaves the tiles as they were and the
    accumulator's buffer with the listed store written (`xo` plus the tile pair's sum). -/
noncomputable def run2_later (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond2 i) (x0 : Vec F S1024x128 .f32) (x1 : Vec F S1024x128 .f32) (xo : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KFrame2.lean ====
/-
  Launch 2 of the tile-sum kernel over its 8×8 grid: what the pipeline's buffers hold from point to point.

  With the arrays as the launch finds them (`V`), window 0's buffer holds row tile t / 8 of its array and window 1's
  row tile t % 8 of its array at every point `t`, fetched there or kept from an earlier point. The accumulator's 1×1
  buffer is written back only after the last point, so at every point after the first it still holds what the point
  before left: `accAt2` is that running value, defined by recursion on the point — the first point's case at
  point 0, the later points' case over the previous value. The body obligation follows case by case from the runs.
-/
import proofs.«145707_j71536975282442_1_alg».proof.Proof.KBody2
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator's buffer -/

/-- The first point's stores cover the 1×1 buffer. -/
theorem cover2_first (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond2 i) (x0 : Vec F S1024x128 .f32) (x1 : Vec F S1024x128 .f32) (y : S1x1.Idx) :
    ∃ pc ∈ (run2_first c i arg2 harg2 arg3 harg3 arg4 harg4 hc0 x0 x1).1, y ∈ pc.1.set :=
  View.cover_of_tiledL (run2_first c i arg2 harg2 arg3 harg3 arg4 harg4 hc0 x0 x1).1 S1x1.size (by sl_kernel_rfl) y

/-- What the first point leaves there: its stores read back. -/
def out2_first (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond2 i) (x0 : Vec F S1024x128 .f32) (x1 : Vec F S1024x128 .f32) : Vec F S1x1 .f32 :=
  VO2.read (Elt F) (VO2.writes (Elt F) VO2.junk (run2_first c i arg2 harg2 arg3 harg3 arg4 harg4 hc0 x0 x1).1)

/-- A later point's store covers the 1×1 buffer. -/
theorem cover2_later (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond2 i) (x0 : Vec F S1024x128 .f32) (x1 : Vec F S1024x128 .f32) (xo : Vec F S1x1 .f32) (y : S1x1.Idx) :
    ∃ pc ∈ (run2_later c i arg2 harg2 arg3 harg3 arg4 harg4 hc0 x0 x1 xo).1, y ∈ pc.1.set :=
  View.cover_of_tiledL (run2_later c i arg2 harg2 arg3 harg3 arg4 harg4 hc0 x0 x1 xo).1 S1x1.size (by sl_kernel_rfl) y

/-- What a later point leaves there, from what it found (`xo`): its store read back. -/
def out2_later (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond2 i) (x0 : Vec F S1024x128 .f32) (x1 : Vec F S1024x128 .f32) (xo : Vec F S1x1 .f32) : Vec F S1x1 .f32 :=
  VO2.read (Elt F) (VO2.writes (Elt F) VO2.junk (run2_later c i arg2 harg2 arg3 harg3 arg4 harg4 hc0 x0 x1 xo).1)

/-! ## The running value -/

/-- What the accumulator's buffer holds after the body at position `n`: the first point's case at 0, a later point's
    case over what position `n - 1` left. -/
def accAt2 (c : Dev nD) : (n : ℕ) → n < cfg2.N → Vec F S1x1 .f32
  | 0, hn => out2_first c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((hcond2 ⟨0, hn⟩).mpr (Nat.zero_mod _)) (iblk2 V c 0 ⟨0, hn⟩) (iblk2 V c 1 ⟨0, hn⟩)
  | n + 1, hn =>
    if h0 : (n + 1) % 64 = 0 then
      out2_first c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        ((hcond2 ⟨n + 1, hn⟩).mpr h0) (iblk2 V c 0 ⟨n + 1, hn⟩) (iblk2 V c 1 ⟨n + 1, hn⟩)
    else
      out2_later c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        (fun h => h0 ((hcond2 ⟨n + 1, hn⟩).mp h)) (iblk2 V c 0 ⟨n + 1, hn⟩) (iblk2 V c 1 ⟨n + 1, hn⟩) (accAt2 c n (Nat.lt_of_succ_lt hn))

/-- The running value at the first point. -/
theorem accAt2_first (c : Dev nD) (t : Fin cfg2.N) (h0 : t.val % 64 = 0) :
    accAt2 V c t.val t.isLt = out2_first c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

/-- The running value at a later point, over what the point before left. -/
theorem accAt2_later (c : Dev nD) (t : Fin cfg2.N) (h0 : ¬t.val % 64 = 0) :
    accAt2 V c t.val t.isLt = out2_later c (grid2.coords t) (ms2_0 t) (hs2_0 t) (ms2_1 t) (hs2_1 t) (ms2_2 t) (hs2_2 t) (fun h => h0 ((hcond2 t).mp h)) (iblk2 V c 0 t) (iblk2 V c 1 t)
      (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the
    accumulator's at the running value; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ _ := Pipeline.ΦA spec2 c
  q w := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- After the first point the accumulator's buffer holds what the point before left: it is not written back between. -/
theorem before2_2_later (c : Dev nD) (t : Fin cfg2.N) (h0 : ¬t.val % 64 = 0) (d) :
    (dat2 V c).before 2 t d = accAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' buffers hold their blocks; the point is the first or not; after the first the
    accumulator's buffer holds the running value; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 64 := lt_of_lt_of_eq t.isLt (show cfg2.N = 64 from N_2)
  by_cases h0 : t.val % 64 = 0
  · rw [accAt2_first V c t h0]
    unfold out2_first
    iintro ⟨HΦ, Ho, ⟨%d0, H0⟩, ⟨%d1, H1⟩, ⟨%d2, H2⟩⟩
    iapply ((run2_first c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_first c _ _ _ _ _ _ _ _ _ _)
  · rw [accAt2_later V c t h0]
    simp only [before2_2_later V c t h0]
    unfold out2_later
    iintro ⟨HΦ, Ho, ⟨%d0, H0⟩, ⟨%d1, H1⟩, ⟨%d2, H2⟩⟩
    iapply ((run2_later c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_later c _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBody0.lean ====
/-
  Launch 0 of the tile-sum kernel, its body at one grid point.

  The body first decides whether the point is the grid's first (both coordinates zero): there it resets the 1×1
  accumulator to zero. Then, at every point, it loads the two 1024×128 tiles, reads the accumulator back, adds the
  tile pair's sum to it and stores the result. So there are two cases: at the first point the accumulator's old
  contents are never used; at every other point the new contents are a function of the old ones.
  Each case's run is stated for any whole staging buffers, together with the list of stores it ends with.
-/
import proofs.«145707_j71536975282442_1_alg».proof.Proof.Gen.Kernel.Launch
import proofs.«145707_j71536975282442_1_alg».proof.Proof.Gen.Kernel.Skeleton
import proofs.«145707_j71536975282442_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the two grid coordinates. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 of the 64 and nowhere else. -/
theorem hcond0 : ∀ t : Fin cfg0.N, cond0 (grid0.coords t) ↔ t.val % 64 = 0 :=
  (by decide +kernel : ∀ t : Fin grid0.N, cond0 (grid0.coords t) ↔ t.val % 64 = 0)

/-- One staging buffer of the accumulator window, through which its contents are stated. -/
abbrev VO0 : View sig .tc .vmem S1x1 .f32 := (Memref.whole cc0_stg2_0 : Memref sig .tc .vmem S1x1 .f32).view

/-- Each window's current staging memref at point `t`, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

set_option maxHeartbeats 1000000 in
/-- The first point: whatever the accumulator's buffer holds, the body runs to the end, leaves the two tiles as they
    were and the accumulator's buffer with the listed stores written (the reset, then the first tile pair's sum). -/
noncomputable def run0_first (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond0 i) (x0 : Vec F S1024x128 .f32) (x1 : Vec F S1024x128 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Every other point: from the accumulator's buffer at `xo`, the body leaves the tiles as they were and the
    accumulator's buffer with the listed store written (`xo` plus the tile pair's sum). -/
noncomputable def run0_later (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond0 i) (x0 : Vec F S1024x128 .f32) (x1 : Vec F S1024x128 .f32) (xo : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KFrame0.lean ====
/-
  Launch 0 of the tile-sum kernel over its 8×8 grid: what the pipeline's buffers hold from point to point.

  With the arrays as the launch finds them (`V`), window 0's buffer holds row tile t / 8 of its array and window 1's
  row tile t % 8 of its array at every point `t`, fetched there or kept from an earlier point. The accumulator's 1×1
  buffer is written back only after the last point, so at every point after the first it still holds what the point
  before left: `accAt0` is that running value, defined by recursion on the point — the first point's case at
  point 0, the later points' case over the previous value. The body obligation follows case by case from the runs.
-/
import proofs.«145707_j71536975282442_1_alg».proof.Proof.KBody0
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator's buffer -/

/-- The first point's stores cover the 1×1 buffer. -/
theorem cover0_first (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond0 i) (x0 : Vec F S1024x128 .f32) (x1 : Vec F S1024x128 .f32) (y : S1x1.Idx) :
    ∃ pc ∈ (run0_first c i arg2 harg2 arg3 harg3 arg4 harg4 hc0 x0 x1).1, y ∈ pc.1.set :=
  View.cover_of_tiledL (run0_first c i arg2 harg2 arg3 harg3 arg4 harg4 hc0 x0 x1).1 S1x1.size (by sl_kernel_rfl) y

/-- What the first point leaves there: its stores read back. -/
def out0_first (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond0 i) (x0 : Vec F S1024x128 .f32) (x1 : Vec F S1024x128 .f32) : Vec F S1x1 .f32 :=
  VO0.read (Elt F) (VO0.writes (Elt F) VO0.junk (run0_first c i arg2 harg2 arg3 harg3 arg4 harg4 hc0 x0 x1).1)

/-- A later point's store covers the 1×1 buffer. -/
theorem cover0_later (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond0 i) (x0 : Vec F S1024x128 .f32) (x1 : Vec F S1024x128 .f32) (xo : Vec F S1x1 .f32) (y : S1x1.Idx) :
    ∃ pc ∈ (run0_later c i arg2 harg2 arg3 harg3 arg4 harg4 hc0 x0 x1 xo).1, y ∈ pc.1.set :=
  View.cover_of_tiledL (run0_later c i arg2 harg2 arg3 harg3 arg4 harg4 hc0 x0 x1 xo).1 S1x1.size (by sl_kernel_rfl) y

/-- What a later point leaves there, from what it found (`xo`): its store read back. -/
def out0_later (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond0 i) (x0 : Vec F S1024x128 .f32) (x1 : Vec F S1024x128 .f32) (xo : Vec F S1x1 .f32) : Vec F S1x1 .f32 :=
  VO0.read (Elt F) (VO0.writes (Elt F) VO0.junk (run0_later c i arg2 harg2 arg3 harg3 arg4 harg4 hc0 x0 x1 xo).1)

/-! ## The running value -/

/-- What the accumulator's buffer holds after the body at position `n`: the first point's case at 0, a later point's
    case over what position `n - 1` left. -/
def accAt0 (c : Dev nD) : (n : ℕ) → n < cfg0.N → Vec F S1x1 .f32
  | 0, hn => out0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0 ⟨0, hn⟩).mpr (Nat.zero_mod _)) (iblk0 V c 0 ⟨0, hn⟩) (iblk0 V c 1 ⟨0, hn⟩)
  | n + 1, hn =>
    if h0 : (n + 1) % 64 = 0 then
      out0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0 ⟨n + 1, hn⟩).mpr h0) (iblk0 V c 0 ⟨n + 1, hn⟩) (iblk0 V c 1 ⟨n + 1, hn⟩)
    else
      out0_later c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0 ⟨n + 1, hn⟩).mp h)) (iblk0 V c 0 ⟨n + 1, hn⟩) (iblk0 V c 1 ⟨n + 1, hn⟩) (accAt0 c n (Nat.lt_of_succ_lt hn))

/-- The running value at the first point. -/
theorem accAt0_first (c : Dev nD) (t : Fin cfg0.N) (h0 : t.val % 64 = 0) :
    accAt0 V c t.val t.isLt = out0_first c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

/-- The running value at a later point, over what the point before left. -/
theorem accAt0_later (c : Dev nD) (t : Fin cfg0.N) (h0 : ¬t.val % 64 = 0) :
    accAt0 V c t.val t.isLt = out0_later c (grid0.coords t) (ms0_0 t) (hs0_0 t) (ms0_1 t) (hs0_1 t) (ms0_2 t) (hs0_2 t) (fun h => h0 ((hcond0 t).mp h)) (iblk0 V c 0 t) (iblk0 V c 1 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the
    accumulator's at the running value; the scoped rest and the generator register untouched; nothing owed; the
    two input windows read ONE array, each holding half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the accumulator's buffer holds what the point before left: it is not written back between. -/
theorem before0_2_later (c : Dev nD) (t : Fin cfg0.N) (h0 : ¬t.val % 64 = 0) (d) :
    (dat0 V c).before 2 t d = accAt0 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point is the first or not; after the first the
    accumulator's buffer holds the running value; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val % 64 = 0
  · rw [accAt0_first V c t h0]
    unfold out0_first
    iintro ⟨HΦ, Ho, ⟨%d0, H0⟩, ⟨%d1, H1⟩, ⟨%d2, H2⟩⟩
    iapply ((run0_first c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_first c _ _ _ _ _ _ _ _ _ _)
  · rw [accAt0_later V c t h0]
    simp only [before0_2_later V c t h0]
    unfold out0_later
    iintro ⟨HΦ, Ho, ⟨%d0, H0⟩, ⟨%d1, H1⟩, ⟨%d2, H2⟩⟩
    iapply ((run0_later c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_later c _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KSplit0.lean ====
/-
  Launch 0 reads ONE sample matrix through both of its input windows. When the launch is entered the core holds
  that matrix's buffer whole; the pipeline needs each input window to hold its own share of it. This module splits
  the buffer's full share into its two halves at entry, and joins the halves back at exit, where the accumulator's
  array holds its final contents and every other buffer is as it was.
-/
import proofs.«145707_j71536975282442_1_alg».proof.Proof.KFrame0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The launch's windows sit on two buffers: the sample matrix and the accumulator's array. -/
theorem arrImage0 : Finset.univ.image (Pipeline.arrRef (cfgs 0).spec) = {main_arg1, main_v0} := by decide

/-- The windows' arrays, one by one: the sample matrix at its two half shares, the accumulator's array whole. -/
theorem arrays_form0 (c : Dev nD) (G : (w : Fin cfg0.W) → Buf (Elt F) ((cfg0.win w).arr.view.loc (c : Thread nD τ))) :
    (dat0 V c).arrays G = iprop((((c : Thread nD τ).loc main_arg1) ↦{fullShare.left} G 0) ∗ (((c : Thread nD τ).loc main_arg1) ↦{fullShare.right} G 1)
      ∗ (((c : Thread nD τ).loc main_v0) ↦{fullShare} G 2)) := by
  unfold Dat.arrays
  rw [bigSep_W0]
  rw [(arr_whole0 0).set_eq_univ, (arr_whole0 2).set_eq_univ]
  rfl

/-- ENTRY: the core's unscoped buffers at `V` are the launch's arrays at its entry contents — the sample matrix's full
    share split into the two windows' halves — and the rest. -/
theorem entry_split0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  rw [arrays_form0]
  unfold Pipeline.arrBufs
  rw [arrImage0, bigSep_insert (by decide), bigSep_singleton]
  show iprop((((c : Thread nD τ).loc main_arg1) ↦{fullShare} V c main_arg1) ∗ (((c : Thread nD τ).loc main_v0) ↦{fullShare} V c main_v0)) ⊢ _
  iintro ⟨Ha, Ho⟩
  have hs : ((((c : Thread nD τ).loc main_arg1) ↦{fullShare} V c main_arg1) : sProp 𝕄) ⊢ iprop((((c : Thread nD τ).loc main_arg1) ↦{fullShare.left} V c main_arg1) ∗ (((c : Thread nD τ).loc main_arg1) ↦{fullShare.right} V c main_arg1)) :=
    (pointsTo_share (PosShare.mem_left_op_right fullShare)).1
  ihave Hs := hs $$ Ha
  icases Hs with ⟨Hl, Hr⟩
  isplitl [Hl]; · iexact Hl
  isplitl [Hr]; · iexact Hr
  iexact Ho

/-- EXIT: the launch's arrays at their final contents and the rest as it was are the core's unscoped buffers at any
    contents `V'` that agree with the final arrays (`hF`) and with `V` elsewhere (`hrest`): the two halves of the
    sample matrix, never written, join back to its full share. -/
theorem exit_join0 (V' : (c : Dev nD) → (b : Ref sig .tc) → Buf (Elt F) ((c : Thread nD τ).loc b)) (c : Dev nD)
    (hF : ∀ w, (dat0 V c).arrAt w cfg0.N = V' c (Pipeline.arrRef spec0 w))
    (hrest : ∀ b, b ∉ Finset.univ.image (Pipeline.arrRef spec0) → V' c b = V c b) :
    iprop((dat0 V c).arrays ((dat0 V c).arrAt · cfg0.N) ∗ Pipeline.unscopedRest spec0 c (V c)) ⊢ (unscopedBufs c (V' c) : sProp 𝕄) := by
  rw [Pipeline.unscopedBufs_split₀ cfgs 0 winFacts₀0.arr_unscoped c (V' c)]
  refine sep_mono ?_ (Entails.of_eq ?_)
  · rw [arrays_form0]
    unfold Pipeline.arrBufs
    rw [arrImage0, bigSep_insert (by decide), bigSep_singleton]
    rw [hF 0, hF 1, hF 2]
    show _ ⊢ iprop((((c : Thread nD τ).loc main_arg1) ↦{fullShare} V' c main_arg1) ∗ (((c : Thread nD τ).loc main_v0) ↦{fullShare} V' c main_v0))
    iintro ⟨Hl, Hr, Ho⟩
    isplitl [Hl Hr]
    · iapply (pointsTo_share (PosShare.mem_left_op_right fullShare)).2
      isplitl [Hl] <;> iassumption
    iexact Ho
  · unfold Pipeline.unscopedRest
    exact bigSep_congr fun b hb => by rw [hrest b (Finset.mem_sdiff.mp hb).2]

end Cert.Kernel.Hand

end
-- ==== Proof.KBody1.lean ====
/-
  Launch 1 of the tile-sum kernel, its body at one grid point.

  The body first decides whether the point is the grid's first (both coordinates zero): there it resets the 1×1
  accumulator to zero. Then, at every point, it loads the two 1024×128 tiles, reads the accumulator back, adds the
  tile pair's sum to it and stores the result. So there are two cases: at the first point the accumulator's old
  contents are never used; at every other point the new contents are a function of the old ones.
  Each case's run is stated for any whole staging buffers, together with the list of stores it ends with.
-/
import proofs.«145707_j71536975282442_1_alg».proof.Proof.Gen.Kernel.Launch
import proofs.«145707_j71536975282442_1_alg».proof.Proof.Gen.Kernel.Skeleton
import proofs.«145707_j71536975282442_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the two grid coordinates. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 of the 64 and nowhere else. -/
theorem hcond1 : ∀ t : Fin cfg1.N, cond1 (grid1.coords t) ↔ t.val % 64 = 0 :=
  (by decide +kernel : ∀ t : Fin grid1.N, cond1 (grid1.coords t) ↔ t.val % 64 = 0)

/-- One staging buffer of the accumulator window, through which its contents are stated. -/
abbrev VO1 : View sig .tc .vmem S1x1 .f32 := (Memref.whole cc1_stg2_0 : Memref sig .tc .vmem S1x1 .f32).view

/-- Each window's current staging memref at point `t`, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

set_option maxHeartbeats 1000000 in
/-- The first point: whatever the accumulator's buffer holds, the body runs to the end, leaves the two tiles as they
    were and the accumulator's buffer with the listed stores written (the reset, then the first tile pair's sum). -/
noncomputable def run1_first (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond1 i) (x0 : Vec F S1024x128 .f32) (x1 : Vec F S1024x128 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Every other point: from the accumulator's buffer at `xo`, the body leaves the tiles as they were and the
    accumulator's buffer with the listed store written (`xo` plus the tile pair's sum). -/
noncomputable def run1_later (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond1 i) (x0 : Vec F S1024x128 .f32) (x1 : Vec F S1024x128 .f32) (xo : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KFrame1.lean ====
/-
  Launch 1 of the tile-sum kernel over its 8×8 grid: what the pipeline's buffers hold from point to point.

  With the arrays as the launch finds them (`V`), window 0's buffer holds row tile t / 8 of its array and window 1's
  row tile t % 8 of its array at every point `t`, fetched there or kept from an earlier point. The accumulator's 1×1
  buffer is written back only after the last point, so at every point after the first it still holds what the point
  before left: `accAt1` is that running value, defined by recursion on the point — the first point's case at
  point 0, the later points' case over the previous value. The body obligation follows case by case from the runs.
-/
import proofs.«145707_j71536975282442_1_alg».proof.Proof.KBody1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator's buffer -/

/-- The first point's stores cover the 1×1 buffer. -/
theorem cover1_first (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond1 i) (x0 : Vec F S1024x128 .f32) (x1 : Vec F S1024x128 .f32) (y : S1x1.Idx) :
    ∃ pc ∈ (run1_first c i arg2 harg2 arg3 harg3 arg4 harg4 hc0 x0 x1).1, y ∈ pc.1.set :=
  View.cover_of_tiledL (run1_first c i arg2 harg2 arg3 harg3 arg4 harg4 hc0 x0 x1).1 S1x1.size (by sl_kernel_rfl) y

/-- What the first point leaves there: its stores read back. -/
def out1_first (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond1 i) (x0 : Vec F S1024x128 .f32) (x1 : Vec F S1024x128 .f32) : Vec F S1x1 .f32 :=
  VO1.read (Elt F) (VO1.writes (Elt F) VO1.junk (run1_first c i arg2 harg2 arg3 harg3 arg4 harg4 hc0 x0 x1).1)

/-- A later point's store covers the 1×1 buffer. -/
theorem cover1_later (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond1 i) (x0 : Vec F S1024x128 .f32) (x1 : Vec F S1024x128 .f32) (xo : Vec F S1x1 .f32) (y : S1x1.Idx) :
    ∃ pc ∈ (run1_later c i arg2 harg2 arg3 harg3 arg4 harg4 hc0 x0 x1 xo).1, y ∈ pc.1.set :=
  View.cover_of_tiledL (run1_later c i arg2 harg2 arg3 harg3 arg4 harg4 hc0 x0 x1 xo).1 S1x1.size (by sl_kernel_rfl) y

/-- What a later point leaves there, from what it found (`xo`): its store read back. -/
def out1_later (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond1 i) (x0 : Vec F S1024x128 .f32) (x1 : Vec F S1024x128 .f32) (xo : Vec F S1x1 .f32) : Vec F S1x1 .f32 :=
  VO1.read (Elt F) (VO1.writes (Elt F) VO1.junk (run1_later c i arg2 harg2 arg3 harg3 arg4 harg4 hc0 x0 x1 xo).1)

/-! ## The running value -/

/-- What the accumulator's buffer holds after the body at position `n`: the first point's case at 0, a later point's
    case over what position `n - 1` left. -/
def accAt1 (c : Dev nD) : (n : ℕ) → n < cfg1.N → Vec F S1x1 .f32
  | 0, hn => out1_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1 ⟨0, hn⟩).mpr (Nat.zero_mod _)) (iblk1 V c 0 ⟨0, hn⟩) (iblk1 V c 1 ⟨0, hn⟩)
  | n + 1, hn =>
    if h0 : (n + 1) % 64 = 0 then
      out1_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1 ⟨n + 1, hn⟩).mpr h0) (iblk1 V c 0 ⟨n + 1, hn⟩) (iblk1 V c 1 ⟨n + 1, hn⟩)
    else
      out1_later c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1 ⟨n + 1, hn⟩).mp h)) (iblk1 V c 0 ⟨n + 1, hn⟩) (iblk1 V c 1 ⟨n + 1, hn⟩) (accAt1 c n (Nat.lt_of_succ_lt hn))

/-- The running value at the first point. -/
theorem accAt1_first (c : Dev nD) (t : Fin cfg1.N) (h0 : t.val % 64 = 0) :
    accAt1 V c t.val t.isLt = out1_first c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

/-- The running value at a later point, over what the point before left. -/
theorem accAt1_later (c : Dev nD) (t : Fin cfg1.N) (h0 : ¬t.val % 64 = 0) :
    accAt1 V c t.val t.isLt = out1_later c (grid1.coords t) (ms1_0 t) (hs1_0 t) (ms1_1 t) (hs1_1 t) (ms1_2 t) (hs1_2 t) (fun h => h0 ((hcond1 t).mp h)) (iblk1 V c 0 t) (iblk1 V c 1 t)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the
    accumulator's at the running value; the scoped rest and the generator register untouched; nothing owed; the
    two input windows read ONE array, each holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- After the first point the accumulator's buffer holds what the point before left: it is not written back between. -/
theorem before1_2_later (c : Dev nD) (t : Fin cfg1.N) (h0 : ¬t.val % 64 = 0) (d) :
    (dat1 V c).before 2 t d = accAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; the point is the first or not; after the first the
    accumulator's buffer holds the running value; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 64 := lt_of_lt_of_eq t.isLt (show cfg1.N = 64 from N_1)
  by_cases h0 : t.val % 64 = 0
  · rw [accAt1_first V c t h0]
    unfold out1_first
    iintro ⟨HΦ, Ho, ⟨%d0, H0⟩, ⟨%d1, H1⟩, ⟨%d2, H2⟩⟩
    iapply ((run1_first c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_first c _ _ _ _ _ _ _ _ _ _)
  · rw [accAt1_later V c t h0]
    simp only [before1_2_later V c t h0]
    unfold out1_later
    iintro ⟨HΦ, Ho, ⟨%d0, H0⟩, ⟨%d1, H1⟩, ⟨%d2, H2⟩⟩
    iapply ((run1_later c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_later c _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KSplit1.lean ====
/-
  Launch 1 reads ONE sample matrix through both of its input windows. When the launch is entered the core holds
  that matrix's buffer whole; the pipeline needs each input window to hold its own share of it. This module splits
  the buffer's full share into its two halves at entry, and joins the halves back at exit, where the accumulator's
  array holds its final contents and every other buffer is as it was.
-/
import proofs.«145707_j71536975282442_1_alg».proof.Proof.KFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The launch's windows sit on two buffers: the sample matrix and the accumulator's array. -/
theorem arrImage1 : Finset.univ.image (Pipeline.arrRef (cfgs 1).spec) = {main_arg0, main_v2} := by decide

/-- The windows' arrays, one by one: the sample matrix at its two half shares, the accumulator's array whole. -/
theorem arrays_form1 (c : Dev nD) (G : (w : Fin cfg1.W) → Buf (Elt F) ((cfg1.win w).arr.view.loc (c : Thread nD τ))) :
    (dat1 V c).arrays G = iprop((((c : Thread nD τ).loc main_arg0) ↦{fullShare.left} G 0) ∗ (((c : Thread nD τ).loc main_arg0) ↦{fullShare.right} G 1)
      ∗ (((c : Thread nD τ).loc main_v2) ↦{fullShare} G 2)) := by
  unfold Dat.arrays
  rw [bigSep_W1]
  rw [(arr_whole1 0).set_eq_univ, (arr_whole1 2).set_eq_univ]
  rfl

/-- ENTRY: the core's unscoped buffers at `V` are the launch's arrays at its entry contents — the sample matrix's full
    share split into the two windows' halves — and the rest. -/
theorem entry_split1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [arrays_form1]
  unfold Pipeline.arrBufs
  rw [arrImage1, bigSep_insert (by decide), bigSep_singleton]
  show iprop((((c : Thread nD τ).loc main_arg0) ↦{fullShare} V c main_arg0) ∗ (((c : Thread nD τ).loc main_v2) ↦{fullShare} V c main_v2)) ⊢ _
  iintro ⟨Ha, Ho⟩
  have hs : ((((c : Thread nD τ).loc main_arg0) ↦{fullShare} V c main_arg0) : sProp 𝕄) ⊢ iprop((((c : Thread nD τ).loc main_arg0) ↦{fullShare.left} V c main_arg0) ∗ (((c : Thread nD τ).loc main_arg0) ↦{fullShare.right} V c main_arg0)) :=
    (pointsTo_share (PosShare.mem_left_op_right fullShare)).1
  ihave Hs := hs $$ Ha
  icases Hs with ⟨Hl, Hr⟩
  isplitl [Hl]; · iexact Hl
  isplitl [Hr]; · iexact Hr
  iexact Ho

/-- EXIT: the launch's arrays at their final contents and the rest as it was are the core's unscoped buffers at any
    contents `V'` that agree with the final arrays (`hF`) and with `V` elsewhere (`hrest`): the two halves of the
    sample matrix, never written, join back to its full share. -/
theorem exit_join1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N) ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  · rw [arrays_form1]
    unfold Pipeline.arrBufs
    rw [arrImage1, bigSep_insert (by decide), bigSep_singleton]
    rw [hF 0, hF 1, hF 2]
    show _ ⊢ iprop((((c : Thread nD τ).loc main_arg0) ↦{fullShare} V' c main_arg0) ∗ (((c : Thread nD τ).loc main_v2) ↦{fullShare} V' c main_v2))
    iintro ⟨Hl, Hr, Ho⟩
    isplitl [Hl Hr]
    · iapply (pointsTo_share (PosShare.mem_left_op_right fullShare)).2
      isplitl [Hl] <;> iassumption
    iexact Ho
  · unfold Pipeline.unscopedRest
    exact bigSep_congr fun b hb => by rw [hrest b (Finset.mem_sdiff.mp hb).2]

end Cert.Kernel.Hand

end
-- ==== Proof.KRun.lean ====
/-
  The whole program as a run: three launches of the tile-sum kernel with host operations between and after them.

  Between two items of @main every unscoped buffer of a core is held at known contents: the launch memory; after a
  launch the same with the launch's accumulator array at what its pipeline leaves; after a stretch of host operations
  their composition applied to what came before. Each launch is a segment entered from and left at such contents;
  the host stretches are segments of their own. The launch rule for a list of segments then gives: every weakly
  fair execution terminates, nothing faults, and at the end every unscoped buffer holds the last contents `W6`.
-/
import proofs.«145707_j71536975282442_1_alg».proof.Proof.KFrame2
import proofs.«145707_j71536975282442_1_alg».proof.Proof.KSplit0
import proofs.«145707_j71536975282442_1_alg».proof.Proof.KSplit1
import proofs.«145707_j71536975282442_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (what launch 0's proof data take). -/
abbrev V0 : (c : Dev nD) → (b : Ref sig .tc) → Buf (Elt F) ((c : Thread nD τ).loc b) := fun c b => W0 m ρ c b

/-- At launch 0's exit its accumulator's array holds what the pipeline's last write-back leaves, its inputs what they
    held at entry (an input is never written), and every other buffer what it held at entry. -/
def W1 (c : Dev nD) : Valuation τ sig (Elt F) :=
  Function.update (W0 m ρ c) (Proc.devRef .tc main_v0) ((dat0 (V0 m ρ) c).arrAt 2 cfg0.N)
theorem W1_out (c : Dev nD) : W1 m ρ c (Proc.devRef .tc main_v0) = (dat0 (V0 m ρ) c).arrAt 2 cfg0.N := by
  unfold W1; exact Function.update_self ..
theorem W1_of_ne (c : Dev nD) (b : Ref sig .tc) (hb : b ≠ main_v0) :
    W1 m ρ c (Proc.devRef .tc b) = W0 m ρ c (Proc.devRef .tc b) := by
  unfold W1; exact Function.update_of_ne (StableHlo.devRef_ne_of_ne hb) ..
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) := by
  match w with
  | ⟨0, _⟩ => exact ((dat0 (V0 m ρ) c).arrAt_in 0 rfl _).trans ((A_eq0 (V0 m ρ) c 0).trans (W1_of_ne m ρ c _ (by decide)).symm)
  | ⟨1, _⟩ => exact ((dat0 (V0 m ρ) c).arrAt_in 1 rfl _).trans ((A_eq0 (V0 m ρ) c 1).trans (W1_of_ne m ρ c _ (by decide)).symm)
  | ⟨2, _⟩ => exact (W1_out m ρ c).symm
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)

/-- After the first host stretch (launch 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At launch 1's exit its accumulator's array holds what the pipeline's last write-back leaves, its inputs what they
    held at entry (an input is never written), and every other buffer what it held at entry. -/
def W3 (c : Dev nD) : Valuation τ sig (Elt F) :=
  Function.update (W2 m ρ c) (Proc.devRef .tc main_v2) ((dat1 (V2 m ρ) c).arrAt 2 cfg1.N)
theorem W3_out (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c _ (by decide)).symm)
  | ⟨1, _⟩ => exact ((dat1 (V2 m ρ) c).arrAt_in 1 rfl _).trans ((A_eq1 (V2 m ρ) c 1).trans (W3_of_ne m ρ c _ (by decide)).symm)
  | ⟨2, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-- After the second host stretch (launch 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At launch 2's exit its accumulator's array holds what the pipeline's last write-back leaves, its inputs what they
    held at entry (an input is never written), and every other buffer what it held at entry. -/
def W5 (c : Dev nD) : Valuation τ sig (Elt F) :=
  Function.update (W4 m ρ c) (Proc.devRef .tc main_v4) ((dat2 (V4 m ρ) c).arrAt 2 cfg2.N)
theorem W5_out (c : Dev nD) : W5 m ρ c (Proc.devRef .tc main_v4) = (dat2 (V4 m ρ) c).arrAt 2 cfg2.N := by
  unfold W5; exact Function.update_self ..
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) := by
  match w with
  | ⟨0, _⟩ => exact ((dat2 (V4 m ρ) c).arrAt_in 0 rfl _).trans ((A_eq2 (V4 m ρ) c 0).trans (W5_of_ne m ρ c _ (by decide)).symm)
  | ⟨1, _⟩ => exact ((dat2 (V4 m ρ) c).arrAt_in 1 rfl _).trans ((A_eq2 (V4 m ρ) c 1).trans (W5_of_ne m ρ c _ (by decide)).symm)
  | ⟨2, _⟩ => exact (W5_out m ρ c).symm
theorem hrest2 (c : Dev nD) : ∀ b, b ∉ Finset.univ.image (Pipeline.arrRef spec2) → V5 m ρ c b = V4 m ρ c b :=
  fun b hb => W5_of_ne m ρ c b fun e => hb (Finset.mem_image.mpr ⟨2, Finset.mem_univ _, e.symm⟩)

/-- After the last host stretch: the contents the program ends with. -/
abbrev W6 : Dev nD → Valuation τ sig (Elt F) := fun c => StableHlo.after hostOps3 (W5 m ρ c)

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at `W6`, the generator register at some state. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered from every unscoped buffer at `W0`, left at `W1`. The sample
    matrix's buffer is split between the two input windows at entry and joined back at exit; the generator register
    passes through the body's invariant; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split0 (F := F) (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (V0 m ρ c))
        ⊢ (unscopedBufs c (V1 m ρ c) : sProp 𝕄) :=
      exit_join0 (F := F) (V0 m ρ) (V1 m ρ) c (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`. The sample
    matrix's buffer is split between the two input windows at entry and joined back at exit; the generator register
    passes through the body's invariant; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry_split1 (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V3 m ρ c) : sProp 𝕄) :=
      exit_join1 (F := F) (V2 m ρ) (V3 m ρ) c (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W4`, left at `W5`. Its three
    windows sit on three distinct buffers, each held whole. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Hand

end
-- ==== Proof.KTail.lean ====
/-
  What the program ends with.

  No host operation and no launch writes an argument, so both sample matrices end as launched.
-/
import proofs.«145707_j71536975282442_1_alg».proof.Proof.KRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic Idealize.SL.Sem
open Idealize.ShloMosaic.StableHlo

section Args

variable {F : FTy → Type} [FloatOps F]
variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A host stretch leaves every buffer it does not write as it was. -/
theorem W6_of (c : Dev nD) (r : Ref sig .tc) (h : r ∉ hostOps3_W) : W6 m ρ c r = W5 m ρ c r :=
  StableHlo.after_of_writes_sub hostOps3 _ hostOps3_writes h
theorem W4_of (c : Dev nD) (r : Ref sig .tc) (h : r ∉ hostOps2_W) : W4 m ρ c r = W3 m ρ c r :=
  StableHlo.after_of_writes_sub hostOps2 _ hostOps2_writes h
theorem W2_of (c : Dev nD) (r : Ref sig .tc) (h : r ∉ hostOps1_W) : W2 m ρ c r = W1 m ρ c r :=
  StableHlo.after_of_writes_sub hostOps1 _ hostOps1_writes h

/-- A buffer no item writes holds its launch contents at every boundary. -/
theorem W2_launch (c : Dev nD) (r : Ref sig .tc) (h1 : r ∉ hostOps1_W) (h0 : r ≠ main_v0) : W2 m ρ c r = m ((c : Thread nD τ).loc r) :=
  (W2_of m ρ c r h1).trans ((W1_of_ne m ρ c r h0).trans rfl)
theorem W4_launch (c : Dev nD) (r : Ref sig .tc) (h2 : r ∉ hostOps2_W) (hv2 : r ≠ main_v2) (h1 : r ∉ hostOps1_W) (h0 : r ≠ main_v0) :
    W4 m ρ c r = m ((c : Thread nD τ).loc r) :=
  (W4_of m ρ c r h2).trans ((W3_of_ne m ρ c r hv2).trans (W2_launch m ρ c r h1 h0))
theorem W6_launch (c : Dev nD) (r : Ref sig .tc) (h3 : r ∉ hostOps3_W) (hv4 : r ≠ main_v4) (h2 : r ∉ hostOps2_W) (hv2 : r ≠ main_v2)
    (h1 : r ∉ hostOps1_W) (h0 : r ≠ main_v0) : W6 m ρ c r = m ((c : Thread nD τ).loc r) :=
  (W6_of m ρ c r h3).trans ((W5_of_ne m ρ c r hv4).trans (W4_launch m ρ c r h2 hv2 h1 h0))

theorem W6_arg0 (c : Dev nD) : W6 m ρ c main_arg0 = m ((c : Thread nD τ).loc main_arg0) :=
  W6_launch m ρ c main_arg0 (by decide) (by decide) (by decide) (by decide) (by decide) (by decide)
theorem W6_arg1 (c : Dev nD) : W6 m ρ c main_arg1 = m ((c : Thread nD τ).loc main_arg1) :=
  W6_launch m ρ c main_arg1 (by decide) (by decide) (by decide) (by decide) (by decide) (by decide)

end Args

end Cert.Kernel.Hand

end
-- ==== Proof.Body2.lean ====
/-
  Launch 2 of the tile-sum kernel, its body at one grid point.

  The body first decides whether the point is the grid's first (both coordinates zero): there it resets the 1×1
  accumulator to zero. Then, at every point, it loads the two 1024×128 tiles, reads the accumulator back, adds the
  tile pair's sum to it and stores the result. So there are two cases: at the first point the accumulator's old
  contents are never used; at every other point the new contents are a function of the old ones.
  Each case's run is stated for any whole staging buffers, together with the list of stores it ends with.
-/
import proofs.«145707_j71536975282442_1_alg».proof.Proof.Gen.KernelIdeal.Launch
import proofs.«145707_j71536975282442_1_alg».proof.Proof.Gen.KernelIdeal.Skeleton
import proofs.«145707_j71536975282442_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the two grid coordinates. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 of the 64 and nowhere else. -/
theorem hcond2 : ∀ t : Fin cfg2.N, cond2 (grid2.coords t) ↔ t.val % 64 = 0 :=
  (by decide +kernel : ∀ t : Fin grid2.N, cond2 (grid2.coords t) ↔ t.val % 64 = 0)

/-- One staging buffer of the accumulator window, through which its contents are stated. -/
abbrev VO2 : View sig .tc .vmem S1x1 .f32 := (Memref.whole cc2_stg2_0 : Memref sig .tc .vmem S1x1 .f32).view

/-- Each window's current staging memref at point `t`, and its wholeness. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

set_option maxHeartbeats 1000000 in
/-- The first point: whatever the accumulator's buffer holds, the body runs to the end, leaves the two tiles as they
    were and the accumulator's buffer with the listed stores written (the reset, then the first tile pair's sum). -/
noncomputable def run2_first (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond2 i) (x0 : Vec F S1024x128 .f32) (x1 : Vec F S1024x128 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Every other point: from the accumulator's buffer at `xo`, the body leaves the tiles as they were and the
    accumulator's buffer with the listed store written (`xo` plus the tile pair's sum). -/
noncomputable def run2_later (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond2 i) (x0 : Vec F S1024x128 .f32) (x1 : Vec F S1024x128 .f32) (xo : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc2__rbf_sum_kernel i arg2 harg2 arg3 harg3 arg4 harg4) K } := by
  refine ⟨?_, fun E K => ?run⟩
  case run =>
    simp only [cc2__rbf_sum_kernel_eq_skeleton]; unfold cc2__rbf_sum_kernel_skel
    simp only [k2_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.Frame2.lean ====
/-
  Launch 2 of the tile-sum kernel over its 8×8 grid: what the pipeline's buffers hold from point to point.

  With the arrays as the launch finds them (`V`), window 0's buffer holds row tile t / 8 of its array and window 1's
  row tile t % 8 of its array at every point `t`, fetched there or kept from an earlier point. The accumulator's 1×1
  buffer is written back only after the last point, so at every point after the first it still holds what the point
  before left: `accAt2` is that running value, defined by recursion on the point — the first point's case at
  point 0, the later points' case over the previous value. The body obligation follows case by case from the runs.
-/
import proofs.«145707_j71536975282442_1_alg».proof.Proof.Body2
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator's buffer -/

/-- The first point's stores cover the 1×1 buffer. -/
theorem cover2_first (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond2 i) (x0 : Vec F S1024x128 .f32) (x1 : Vec F S1024x128 .f32) (y : S1x1.Idx) :
    ∃ pc ∈ (run2_first c i arg2 harg2 arg3 harg3 arg4 harg4 hc0 x0 x1).1, y ∈ pc.1.set :=
  View.cover_of_tiledL (run2_first c i arg2 harg2 arg3 harg3 arg4 harg4 hc0 x0 x1).1 S1x1.size (by sl_kernel_rfl) y

/-- What the first point leaves there: its stores read back. -/
def out2_first (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond2 i) (x0 : Vec F S1024x128 .f32) (x1 : Vec F S1024x128 .f32) : Vec F S1x1 .f32 :=
  VO2.read (Elt F) (VO2.writes (Elt F) VO2.junk (run2_first c i arg2 harg2 arg3 harg3 arg4 harg4 hc0 x0 x1).1)

/-- A later point's store covers the 1×1 buffer. -/
theorem cover2_later (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond2 i) (x0 : Vec F S1024x128 .f32) (x1 : Vec F S1024x128 .f32) (xo : Vec F S1x1 .f32) (y : S1x1.Idx) :
    ∃ pc ∈ (run2_later c i arg2 harg2 arg3 harg3 arg4 harg4 hc0 x0 x1 xo).1, y ∈ pc.1.set :=
  View.cover_of_tiledL (run2_later c i arg2 harg2 arg3 harg3 arg4 harg4 hc0 x0 x1 xo).1 S1x1.size (by sl_kernel_rfl) y

/-- What a later point leaves there, from what it found (`xo`): its store read back. -/
def out2_later (c : Dev nD) (i : grid2.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond2 i) (x0 : Vec F S1024x128 .f32) (x1 : Vec F S1024x128 .f32) (xo : Vec F S1x1 .f32) : Vec F S1x1 .f32 :=
  VO2.read (Elt F) (VO2.writes (Elt F) VO2.junk (run2_later c i arg2 harg2 arg3 harg3 arg4 harg4 hc0 x0 x1 xo).1)

/-! ## The running value -/

/-- What the accumulator's buffer holds after the body at position `n`: the first point's case at 0, a later point's
    case over what position `n - 1` left. -/
def accAt2 (c : Dev nD) : (n : ℕ) → n < cfg2.N → Vec F S1x1 .f32
  | 0, hn => out2_first c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((hcond2 ⟨0, hn⟩).mpr (Nat.zero_mod _)) (iblk2 V c 0 ⟨0, hn⟩) (iblk2 V c 1 ⟨0, hn⟩)
  | n + 1, hn =>
    if h0 : (n + 1) % 64 = 0 then
      out2_first c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        ((hcond2 ⟨n + 1, hn⟩).mpr h0) (iblk2 V c 0 ⟨n + 1, hn⟩) (iblk2 V c 1 ⟨n + 1, hn⟩)
    else
      out2_later c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
        (fun h => h0 ((hcond2 ⟨n + 1, hn⟩).mp h)) (iblk2 V c 0 ⟨n + 1, hn⟩) (iblk2 V c 1 ⟨n + 1, hn⟩) (accAt2 c n (Nat.lt_of_succ_lt hn))

/-- The running value at the first point. -/
theorem accAt2_first (c : Dev nD) (t : Fin cfg2.N) (h0 : t.val % 64 = 0) :
    accAt2 V c t.val t.isLt = out2_first c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

/-- The running value at a later point, over what the point before left. -/
theorem accAt2_later (c : Dev nD) (t : Fin cfg2.N) (h0 : ¬t.val % 64 = 0) :
    accAt2 V c t.val t.isLt = out2_later c (grid2.coords t) (ms2_0 t) (hs2_0 t) (ms2_1 t) (hs2_1 t) (ms2_2 t) (hs2_2 t) (fun h => h0 ((hcond2 t).mp h)) (iblk2 V c 0 t) (iblk2 V c 1 t)
      (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the
    accumulator's at the running value; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ _ := Pipeline.ΦA spec2 c
  q w := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- After the first point the accumulator's buffer holds what the point before left: it is not written back between. -/
theorem before2_2_later (c : Dev nD) (t : Fin cfg2.N) (h0 : ¬t.val % 64 = 0) (d) :
    (dat2 V c).before 2 t d = accAt2 V c (t.val - 1) (Nat.lt_of_le_of_lt (Nat.sub_le _ _) t.isLt) := by
  have hN : t.val < 64 := lt_of_lt_of_eq t.isLt (show cfg2.N = 64 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' buffers hold their blocks; the point is the first or not; after the first the
    accumulator's buffer holds the running value; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 64 := lt_of_lt_of_eq t.isLt (show cfg2.N = 64 from N_2)
  by_cases h0 : t.val % 64 = 0
  · rw [accAt2_first V c t h0]
    unfold out2_first
    iintro ⟨HΦ, Ho, ⟨%d0, H0⟩, ⟨%d1, H1⟩, ⟨%d2, H2⟩⟩
    iapply ((run2_first c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_first c _ _ _ _ _ _ _ _ _ _)
  · rw [accAt2_later V c t h0]
    simp only [before2_2_later V c t h0]
    unfold out2_later
    iintro ⟨HΦ, Ho, ⟨%d0, H0⟩, ⟨%d1, H1⟩, ⟨%d2, H2⟩⟩
    iapply ((run2_later c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_later c _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Body0.lean ====
/-
  Launch 0 of the tile-sum kernel, its body at one grid point.

  The body first decides whether the point is the grid's first (both coordinates zero): there it resets the 1×1
  accumulator to zero. Then, at every point, it loads the two 1024×128 tiles, reads the accumulator back, adds the
  tile pair's sum to it and stores the result. So there are two cases: at the first point the accumulator's old
  contents are never used; at every other point the new contents are a function of the old ones.
  Each case's run is stated for any whole staging buffers, together with the list of stores it ends with.
-/
import proofs.«145707_j71536975282442_1_alg».proof.Proof.Gen.KernelIdeal.Launch
import proofs.«145707_j71536975282442_1_alg».proof.Proof.Gen.KernelIdeal.Skeleton
import proofs.«145707_j71536975282442_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the two grid coordinates. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 of the 64 and nowhere else. -/
theorem hcond0 : ∀ t : Fin cfg0.N, cond0 (grid0.coords t) ↔ t.val % 64 = 0 :=
  (by decide +kernel : ∀ t : Fin grid0.N, cond0 (grid0.coords t) ↔ t.val % 64 = 0)

/-- One staging buffer of the accumulator window, through which its contents are stated. -/
abbrev VO0 : View sig .tc .vmem S1x1 .f32 := (Memref.whole cc0_stg2_0 : Memref sig .tc .vmem S1x1 .f32).view

/-- Each window's current staging memref at point `t`, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

set_option maxHeartbeats 1000000 in
/-- The first point: whatever the accumulator's buffer holds, the body runs to the end, leaves the two tiles as they
    were and the accumulator's buffer with the listed stores written (the reset, then the first tile pair's sum). -/
noncomputable def run0_first (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond0 i) (x0 : Vec F S1024x128 .f32) (x1 : Vec F S1024x128 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Every other point: from the accumulator's buffer at `xo`, the body leaves the tiles as they were and the
    accumulator's buffer with the listed store written (`xo` plus the tile pair's sum). -/
noncomputable def run0_later (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond0 i) (x0 : Vec F S1024x128 .f32) (x1 : Vec F S1024x128 .f32) (xo : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__rbf_sum_kernel i arg2 harg2 arg3 harg3 arg4 harg4) K } := by
  refine ⟨?_, fun E K => ?run⟩
  case run =>
    simp only [cc0__rbf_sum_kernel_eq_skeleton]; unfold cc0__rbf_sum_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.Frame0.lean ====
/-
  Launch 0 of the tile-sum kernel over its 8×8 grid: what the pipeline's buffers hold from point to point.

  With the arrays as the launch finds them (`V`), window 0's buffer holds row tile t / 8 of its array and window 1's
  row tile t % 8 of its array at every point `t`, fetched there or kept from an earlier point. The accumulator's 1×1
  buffer is written back only after the last point, so at every point after the first it still holds what the point
  before left: `accAt0` is that running value, defined by recursion on the point — the first point's case at
  point 0, the later points' case over the previous value. The body obligation follows case by case from the runs.
-/
import proofs.«145707_j71536975282442_1_alg».proof.Proof.Body0
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator's buffer -/

/-- The first point's stores cover the 1×1 buffer. -/
theorem cover0_first (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond0 i) (x0 : Vec F S1024x128 .f32) (x1 : Vec F S1024x128 .f32) (y : S1x1.Idx) :
    ∃ pc ∈ (run0_first c i arg2 harg2 arg3 harg3 arg4 harg4 hc0 x0 x1).1, y ∈ pc.1.set :=
  View.cover_of_tiledL (run0_first c i arg2 harg2 arg3 harg3 arg4 harg4 hc0 x0 x1).1 S1x1.size (by sl_kernel_rfl) y

/-- What the first point leaves there: its stores read back. -/
def out0_first (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond0 i) (x0 : Vec F S1024x128 .f32) (x1 : Vec F S1024x128 .f32) : Vec F S1x1 .f32 :=
  VO0.read (Elt F) (VO0.writes (Elt F) VO0.junk (run0_first c i arg2 harg2 arg3 harg3 arg4 harg4 hc0 x0 x1).1)

/-- A later point's store covers the 1×1 buffer. -/
theorem cover0_later (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond0 i) (x0 : Vec F S1024x128 .f32) (x1 : Vec F S1024x128 .f32) (xo : Vec F S1x1 .f32) (y : S1x1.Idx) :
    ∃ pc ∈ (run0_later c i arg2 harg2 arg3 harg3 arg4 harg4 hc0 x0 x1 xo).1, y ∈ pc.1.set :=
  View.cover_of_tiledL (run0_later c i arg2 harg2 arg3 harg3 arg4 harg4 hc0 x0 x1 xo).1 S1x1.size (by sl_kernel_rfl) y

/-- What a later point leaves there, from what it found (`xo`): its store read back. -/
def out0_later (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond0 i) (x0 : Vec F S1024x128 .f32) (x1 : Vec F S1024x128 .f32) (xo : Vec F S1x1 .f32) : Vec F S1x1 .f32 :=
  VO0.read (Elt F) (VO0.writes (Elt F) VO0.junk (run0_later c i arg2 harg2 arg3 harg3 arg4 harg4 hc0 x0 x1 xo).1)

/-! ## The running value -/

/-- What the accumulator's buffer holds after the body at position `n`: the first point's case at 0, a later point's
    case over what position `n - 1` left. -/
def accAt0 (c : Dev nD) : (n : ℕ) → n < cfg0.N → Vec F S1x1 .f32
  | 0, hn => out0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0 ⟨0, hn⟩).mpr (Nat.zero_mod _)) (iblk0 V c 0 ⟨0, hn⟩) (iblk0 V c 1 ⟨0, hn⟩)
  | n + 1, hn =>
    if h0 : (n + 1) % 64 = 0 then
      out0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0 ⟨n + 1, hn⟩).mpr h0) (iblk0 V c 0 ⟨n + 1, hn⟩) (iblk0 V c 1 ⟨n + 1, hn⟩)
    else
      out0_later c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0 ⟨n + 1, hn⟩).mp h)) (iblk0 V c 0 ⟨n + 1, hn⟩) (iblk0 V c 1 ⟨n + 1, hn⟩) (accAt0 c n (Nat.lt_of_succ_lt hn))

/-- The running value at the first point. -/
theorem accAt0_first (c : Dev nD) (t : Fin cfg0.N) (h0 : t.val % 64 = 0) :
    accAt0 V c t.val t.isLt = out0_first c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

/-- The running value at a later point, over what the point before left. -/
theorem accAt0_later (c : Dev nD) (t : Fin cfg0.N) (h0 : ¬t.val % 64 = 0) :
    accAt0 V c t.val t.isLt = out0_later c (grid0.coords t) (ms0_0 t) (hs0_0 t) (ms0_1 t) (hs0_1 t) (ms0_2 t) (hs0_2 t) (fun h => h0 ((hcond0 t).mp h)) (iblk0 V c 0 t) (iblk0 V c 1 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the
    accumulator's at the running value; the scoped rest and the generator register untouched; nothing owed; the
    two input windows read ONE array, each holding half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first point the accumulator's buffer holds what the point before left: it is not written back between. -/
theorem before0_2_later (c : Dev nD) (t : Fin cfg0.N) (h0 : ¬t.val % 64 = 0) (d) :
    (dat0 V c).before 2 t d = accAt0 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point is the first or not; after the first the
    accumulator's buffer holds the running value; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val % 64 = 0
  · rw [accAt0_first V c t h0]
    unfold out0_first
    iintro ⟨HΦ, Ho, ⟨%d0, H0⟩, ⟨%d1, H1⟩, ⟨%d2, H2⟩⟩
    iapply ((run0_first c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_first c _ _ _ _ _ _ _ _ _ _)
  · rw [accAt0_later V c t h0]
    simp only [before0_2_later V c t h0]
    unfold out0_later
    iintro ⟨HΦ, Ho, ⟨%d0, H0⟩, ⟨%d1, H1⟩, ⟨%d2, H2⟩⟩
    iapply ((run0_later c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_later c _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Split0.lean ====
/-
  Launch 0 reads ONE sample matrix through both of its input windows. When the launch is entered the core holds
  that matrix's buffer whole; the pipeline needs each input window to hold its own share of it. This module splits
  the buffer's full share into its two halves at entry, and joins the halves back at exit, where the accumulator's
  array holds its final contents and every other buffer is as it was.
-/
import proofs.«145707_j71536975282442_1_alg».proof.Proof.Frame0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The launch's windows sit on two buffers: the sample matrix and the accumulator's array. -/
theorem arrImage0 : Finset.univ.image (Pipeline.arrRef (cfgs 0).spec) = {main_arg1, main_v0} := by decide

/-- The windows' arrays, one by one: the sample matrix at its two half shares, the accumulator's array whole. -/
theorem arrays_form0 (c : Dev nD) (G : (w : Fin cfg0.W) → Buf (Elt F) ((cfg0.win w).arr.view.loc (c : Thread nD τ))) :
    (dat0 V c).arrays G = iprop((((c : Thread nD τ).loc main_arg1) ↦{fullShare.left} G 0) ∗ (((c : Thread nD τ).loc main_arg1) ↦{fullShare.right} G 1)
      ∗ (((c : Thread nD τ).loc main_v0) ↦{fullShare} G 2)) := by
  unfold Dat.arrays
  rw [bigSep_W0]
  rw [(arr_whole0 0).set_eq_univ, (arr_whole0 2).set_eq_univ]
  rfl

/-- ENTRY: the core's unscoped buffers at `V` are the launch's arrays at its entry contents — the sample matrix's full
    share split into the two windows' halves — and the rest. -/
theorem entry_split0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  refine sep_mono ?_ .rfl
  rw [arrays_form0]
  unfold Pipeline.arrBufs
  rw [arrImage0, bigSep_insert (by decide), bigSep_singleton]
  show iprop((((c : Thread nD τ).loc main_arg1) ↦{fullShare} V c main_arg1) ∗ (((c : Thread nD τ).loc main_v0) ↦{fullShare} V c main_v0)) ⊢ _
  iintro ⟨Ha, Ho⟩
  have hs : ((((c : Thread nD τ).loc main_arg1) ↦{fullShare} V c main_arg1) : sProp 𝕄) ⊢ iprop((((c : Thread nD τ).loc main_arg1) ↦{fullShare.left} V c main_arg1) ∗ (((c : Thread nD τ).loc main_arg1) ↦{fullShare.right} V c main_arg1)) :=
    (pointsTo_share (PosShare.mem_left_op_right fullShare)).1
  ihave Hs := hs $$ Ha
  icases Hs with ⟨Hl, Hr⟩
  isplitl [Hl]; · iexact Hl
  isplitl [Hr]; · iexact Hr
  iexact Ho

/-- EXIT: the launch's arrays at their final contents and the rest as it was are the core's unscoped buffers at any
    contents `V'` that agree with the final arrays (`hF`) and with `V` elsewhere (`hrest`): the two halves of the
    sample matrix, never written, join back to its full share. -/
theorem exit_join0 (V' : (c : Dev nD) → (b : Ref sig .tc) → Buf (Elt F) ((c : Thread nD τ).loc b)) (c : Dev nD)
    (hF : ∀ w, (dat0 V c).arrAt w cfg0.N = V' c (Pipeline.arrRef spec0 w))
    (hrest : ∀ b, b ∉ Finset.univ.image (Pipeline.arrRef spec0) → V' c b = V c b) :
    iprop((dat0 V c).arrays ((dat0 V c).arrAt · cfg0.N) ∗ Pipeline.unscopedRest spec0 c (V c)) ⊢ (unscopedBufs c (V' c) : sProp 𝕄) := by
  rw [Pipeline.unscopedBufs_split₀ cfgs 0 winFacts₀0.arr_unscoped c (V' c)]
  refine sep_mono ?_ (Entails.of_eq ?_)
  · rw [arrays_form0]
    unfold Pipeline.arrBufs
    rw [arrImage0, bigSep_insert (by decide), bigSep_singleton]
    rw [hF 0, hF 1, hF 2]
    show _ ⊢ iprop((((c : Thread nD τ).loc main_arg1) ↦{fullShare} V' c main_arg1) ∗ (((c : Thread nD τ).loc main_v0) ↦{fullShare} V' c main_v0))
    iintro ⟨Hl, Hr, Ho⟩
    isplitl [Hl Hr]
    · iapply (pointsTo_share (PosShare.mem_left_op_right fullShare)).2
      isplitl [Hl] <;> iassumption
    iexact Ho
  · unfold Pipeline.unscopedRest
    exact bigSep_congr fun b hb => by rw [hrest b (Finset.mem_sdiff.mp hb).2]

end Cert.KernelIdeal.Hand

end
-- ==== Proof.Body1.lean ====
/-
  Launch 1 of the tile-sum kernel, its body at one grid point.

  The body first decides whether the point is the grid's first (both coordinates zero): there it resets the 1×1
  accumulator to zero. Then, at every point, it loads the two 1024×128 tiles, reads the accumulator back, adds the
  tile pair's sum to it and stores the result. So there are two cases: at the first point the accumulator's old
  contents are never used; at every other point the new contents are a function of the old ones.
  Each case's run is stated for any whole staging buffers, together with the list of stores it ends with.
-/
import proofs.«145707_j71536975282442_1_alg».proof.Proof.Gen.KernelIdeal.Launch
import proofs.«145707_j71536975282442_1_alg».proof.Proof.Gen.KernelIdeal.Skeleton
import proofs.«145707_j71536975282442_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the two grid coordinates. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 of the 64 and nowhere else. -/
theorem hcond1 : ∀ t : Fin cfg1.N, cond1 (grid1.coords t) ↔ t.val % 64 = 0 :=
  (by decide +kernel : ∀ t : Fin grid1.N, cond1 (grid1.coords t) ↔ t.val % 64 = 0)

/-- One staging buffer of the accumulator window, through which its contents are stated. -/
abbrev VO1 : View sig .tc .vmem S1x1 .f32 := (Memref.whole cc1_stg2_0 : Memref sig .tc .vmem S1x1 .f32).view

/-- Each window's current staging memref at point `t`, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

set_option maxHeartbeats 1000000 in
/-- The first point: whatever the accumulator's buffer holds, the body runs to the end, leaves the two tiles as they
    were and the accumulator's buffer with the listed stores written (the reset, then the first tile pair's sum). -/
noncomputable def run1_first (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond1 i) (x0 : Vec F S1024x128 .f32) (x1 : Vec F S1024x128 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Every other point: from the accumulator's buffer at `xo`, the body leaves the tiles as they were and the
    accumulator's buffer with the listed store written (`xo` plus the tile pair's sum). -/
noncomputable def run1_later (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond1 i) (x0 : Vec F S1024x128 .f32) (x1 : Vec F S1024x128 .f32) (xo : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__rbf_sum_kernel i arg2 harg2 arg3 harg3 arg4 harg4) K } := by
  refine ⟨?_, fun E K => ?run⟩
  case run =>
    simp only [cc1__rbf_sum_kernel_eq_skeleton]; unfold cc1__rbf_sum_kernel_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.Frame1.lean ====
/-
  Launch 1 of the tile-sum kernel over its 8×8 grid: what the pipeline's buffers hold from point to point.

  With the arrays as the launch finds them (`V`), window 0's buffer holds row tile t / 8 of its array and window 1's
  row tile t % 8 of its array at every point `t`, fetched there or kept from an earlier point. The accumulator's 1×1
  buffer is written back only after the last point, so at every point after the first it still holds what the point
  before left: `accAt1` is that running value, defined by recursion on the point — the first point's case at
  point 0, the later points' case over the previous value. The body obligation follows case by case from the runs.
-/
import proofs.«145707_j71536975282442_1_alg».proof.Proof.Body1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator's buffer -/

/-- The first point's stores cover the 1×1 buffer. -/
theorem cover1_first (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond1 i) (x0 : Vec F S1024x128 .f32) (x1 : Vec F S1024x128 .f32) (y : S1x1.Idx) :
    ∃ pc ∈ (run1_first c i arg2 harg2 arg3 harg3 arg4 harg4 hc0 x0 x1).1, y ∈ pc.1.set :=
  View.cover_of_tiledL (run1_first c i arg2 harg2 arg3 harg3 arg4 harg4 hc0 x0 x1).1 S1x1.size (by sl_kernel_rfl) y

/-- What the first point leaves there: its stores read back. -/
def out1_first (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : cond1 i) (x0 : Vec F S1024x128 .f32) (x1 : Vec F S1024x128 .f32) : Vec F S1x1 .f32 :=
  VO1.read (Elt F) (VO1.writes (Elt F) VO1.junk (run1_first c i arg2 harg2 arg3 harg3 arg4 harg4 hc0 x0 x1).1)

/-- A later point's store covers the 1×1 buffer. -/
theorem cover1_later (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond1 i) (x0 : Vec F S1024x128 .f32) (x1 : Vec F S1024x128 .f32) (xo : Vec F S1x1 .f32) (y : S1x1.Idx) :
    ∃ pc ∈ (run1_later c i arg2 harg2 arg3 harg3 arg4 harg4 hc0 x0 x1 xo).1, y ∈ pc.1.set :=
  View.cover_of_tiledL (run1_later c i arg2 harg2 arg3 harg3 arg4 harg4 hc0 x0 x1 xo).1 S1x1.size (by sl_kernel_rfl) y

/-- What a later point leaves there, from what it found (`xo`): its store read back. -/
def out1_later (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole)
    (hc0 : ¬cond1 i) (x0 : Vec F S1024x128 .f32) (x1 : Vec F S1024x128 .f32) (xo : Vec F S1x1 .f32) : Vec F S1x1 .f32 :=
  VO1.read (Elt F) (VO1.writes (Elt F) VO1.junk (run1_later c i arg2 harg2 arg3 harg3 arg4 harg4 hc0 x0 x1 xo).1)

/-! ## The running value -/

/-- What the accumulator's buffer holds after the body at position `n`: the first point's case at 0, a later point's
    case over what position `n - 1` left. -/
def accAt1 (c : Dev nD) : (n : ℕ) → n < cfg1.N → Vec F S1x1 .f32
  | 0, hn => out1_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1 ⟨0, hn⟩).mpr (Nat.zero_mod _)) (iblk1 V c 0 ⟨0, hn⟩) (iblk1 V c 1 ⟨0, hn⟩)
  | n + 1, hn =>
    if h0 : (n + 1) % 64 = 0 then
      out1_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1 ⟨n + 1, hn⟩).mpr h0) (iblk1 V c 0 ⟨n + 1, hn⟩) (iblk1 V c 1 ⟨n + 1, hn⟩)
    else
      out1_later c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1 ⟨n + 1, hn⟩).mp h)) (iblk1 V c 0 ⟨n + 1, hn⟩) (iblk1 V c 1 ⟨n + 1, hn⟩) (accAt1 c n (Nat.lt_of_succ_lt hn))

/-- The running value at the first point. -/
theorem accAt1_first (c : Dev nD) (t : Fin cfg1.N) (h0 : t.val % 64 = 0) :
    accAt1 V c t.val t.isLt = out1_first c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

/-- The running value at a later point, over what the point before left. -/
theorem accAt1_later (c : Dev nD) (t : Fin cfg1.N) (h0 : ¬t.val % 64 = 0) :
    accAt1 V c t.val t.isLt = out1_later c (grid1.coords t) (ms1_0 t) (hs1_0 t) (ms1_1 t) (hs1_1 t) (ms1_2 t) (hs1_2 t) (fun h => h0 ((hcond1 t).mp h)) (iblk1 V c 0 t) (iblk1 V c 1 t)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the
    accumulator's at the running value; the scoped rest and the generator register untouched; nothing owed; the
    two input windows read ONE array, each holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- After the first point the accumulator's buffer holds what the point before left: it is not written back between. -/
theorem before1_2_later (c : Dev nD) (t : Fin cfg1.N) (h0 : ¬t.val % 64 = 0) (d) :
    (dat1 V c).before 2 t d = accAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; the point is the first or not; after the first the
    accumulator's buffer holds the running value; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 64 := lt_of_lt_of_eq t.isLt (show cfg1.N = 64 from N_1)
  by_cases h0 : t.val % 64 = 0
  · rw [accAt1_first V c t h0]
    unfold out1_first
    iintro ⟨HΦ, Ho, ⟨%d0, H0⟩, ⟨%d1, H1⟩, ⟨%d2, H2⟩⟩
    iapply ((run1_first c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_first c _ _ _ _ _ _ _ _ _ _)
  · rw [accAt1_later V c t h0]
    simp only [before1_2_later V c t h0]
    unfold out1_later
    iintro ⟨HΦ, Ho, ⟨%d0, H0⟩, ⟨%d1, H1⟩, ⟨%d2, H2⟩⟩
    iapply ((run1_later c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_later c _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Split1.lean ====
/-
  Launch 1 reads ONE sample matrix through both of its input windows. When the launch is entered the core holds
  that matrix's buffer whole; the pipeline needs each input window to hold its own share of it. This module splits
  the buffer's full share into its two halves at entry, and joins the halves back at exit, where the accumulator's
  array holds its final contents and every other buffer is as it was.
-/
import proofs.«145707_j71536975282442_1_alg».proof.Proof.Frame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The launch's windows sit on two buffers: the sample matrix and the accumulator's array. -/
theorem arrImage1 : Finset.univ.image (Pipeline.arrRef (cfgs 1).spec) = {main_arg0, main_v2} := by decide

/-- The windows' arrays, one by one: the sample matrix at its two half shares, the accumulator's array whole. -/
theorem arrays_form1 (c : Dev nD) (G : (w : Fin cfg1.W) → Buf (Elt F) ((cfg1.win w).arr.view.loc (c : Thread nD τ))) :
    (dat1 V c).arrays G = iprop((((c : Thread nD τ).loc main_arg0) ↦{fullShare.left} G 0) ∗ (((c : Thread nD τ).loc main_arg0) ↦{fullShare.right} G 1)
      ∗ (((c : Thread nD τ).loc main_v2) ↦{fullShare} G 2)) := by
  unfold Dat.arrays
  rw [bigSep_W1]
  rw [(arr_whole1 0).set_eq_univ, (arr_whole1 2).set_eq_univ]
  rfl

/-- ENTRY: the core's unscoped buffers at `V` are the launch's arrays at its entry contents — the sample matrix's full
    share split into the two windows' halves — and the rest. -/
theorem entry_split1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [arrays_form1]
  unfold Pipeline.arrBufs
  rw [arrImage1, bigSep_insert (by decide), bigSep_singleton]
  show iprop((((c : Thread nD τ).loc main_arg0) ↦{fullShare} V c main_arg0) ∗ (((c : Thread nD τ).loc main_v2) ↦{fullShare} V c main_v2)) ⊢ _
  iintro ⟨Ha, Ho⟩
  have hs : ((((c : Thread nD τ).loc main_arg0) ↦{fullShare} V c main_arg0) : sProp 𝕄) ⊢ iprop((((c : Thread nD τ).loc main_arg0) ↦{fullShare.left} V c main_arg0) ∗ (((c : Thread nD τ).loc main_arg0) ↦{fullShare.right} V c main_arg0)) :=
    (pointsTo_share (PosShare.mem_left_op_right fullShare)).1
  ihave Hs := hs $$ Ha
  icases Hs with ⟨Hl, Hr⟩
  isplitl [Hl]; · iexact Hl
  isplitl [Hr]; · iexact Hr
  iexact Ho

/-- EXIT: the launch's arrays at their final contents and the rest as it was are the core's unscoped buffers at any
    contents `V'` that agree with the final arrays (`hF`) and with `V` elsewhere (`hrest`): the two halves of the
    sample matrix, never written, join back to its full share. -/
theorem exit_join1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N) ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  · rw [arrays_form1]
    unfold Pipeline.arrBufs
    rw [arrImage1, bigSep_insert (by decide), bigSep_singleton]
    rw [hF 0, hF 1, hF 2]
    show _ ⊢ iprop((((c : Thread nD τ).loc main_arg0) ↦{fullShare} V' c main_arg0) ∗ (((c : Thread nD τ).loc main_v2) ↦{fullShare} V' c main_v2))
    iintro ⟨Hl, Hr, Ho⟩
    isplitl [Hl Hr]
    · iapply (pointsTo_share (PosShare.mem_left_op_right fullShare)).2
      isplitl [Hl] <;> iassumption
    iexact Ho
  · unfold Pipeline.unscopedRest
    exact bigSep_congr fun b hb => by rw [hrest b (Finset.mem_sdiff.mp hb).2]

end Cert.KernelIdeal.Hand

end
-- ==== Proof.Run.lean ====
/-
  The whole program as a run: three launches of the tile-sum kernel with host operations between and after them.

  Between two items of @main every unscoped buffer of a core is held at known contents: the launch memory; after a
  launch the same with the launch's accumulator array at what its pipeline leaves; after a stretch of host operations
  their composition applied to what came before. Each launch is a segment entered from and left at such contents;
  the host stretches are segments of their own. The launch rule for a list of segments then gives: every weakly
  fair execution terminates, nothing faults, and at the end every unscoped buffer holds the last contents `W6`.
-/
import proofs.«145707_j71536975282442_1_alg».proof.Proof.Frame2
import proofs.«145707_j71536975282442_1_alg».proof.Proof.Split0
import proofs.«145707_j71536975282442_1_alg».proof.Proof.Split1
import proofs.«145707_j71536975282442_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (what launch 0's proof data take). -/
abbrev V0 : (c : Dev nD) → (b : Ref sig .tc) → Buf (Elt F) ((c : Thread nD τ).loc b) := fun c b => W0 m ρ c b

/-- At launch 0's exit its accumulator's array holds what the pipeline's last write-back leaves, its inputs what they
    held at entry (an input is never written), and every other buffer what it held at entry. -/
def W1 (c : Dev nD) : Valuation τ sig (Elt F) :=
  Function.update (W0 m ρ c) (Proc.devRef .tc main_v0) ((dat0 (V0 m ρ) c).arrAt 2 cfg0.N)
theorem W1_out (c : Dev nD) : W1 m ρ c (Proc.devRef .tc main_v0) = (dat0 (V0 m ρ) c).arrAt 2 cfg0.N := by
  unfold W1; exact Function.update_self ..
theorem W1_of_ne (c : Dev nD) (b : Ref sig .tc) (hb : b ≠ main_v0) :
    W1 m ρ c (Proc.devRef .tc b) = W0 m ρ c (Proc.devRef .tc b) := by
  unfold W1; exact Function.update_of_ne (StableHlo.devRef_ne_of_ne hb) ..
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) := by
  match w with
  | ⟨0, _⟩ => exact ((dat0 (V0 m ρ) c).arrAt_in 0 rfl _).trans ((A_eq0 (V0 m ρ) c 0).trans (W1_of_ne m ρ c _ (by decide)).symm)
  | ⟨1, _⟩ => exact ((dat0 (V0 m ρ) c).arrAt_in 1 rfl _).trans ((A_eq0 (V0 m ρ) c 1).trans (W1_of_ne m ρ c _ (by decide)).symm)
  | ⟨2, _⟩ => exact (W1_out m ρ c).symm
theorem hrest0 (c : Dev nD) : ∀ b, b ∉ Finset.univ.image (Pipeline.arrRef spec0) → V1 m ρ c b = V0 m ρ c b :=
  fun b hb => W1_of_ne m ρ c b fun e => hb (Finset.mem_image.mpr ⟨2, Finset.mem_univ _, e.symm⟩)

/-- After the first host stretch (launch 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At launch 1's exit its accumulator's array holds what the pipeline's last write-back leaves, its inputs what they
    held at entry (an input is never written), and every other buffer what it held at entry. -/
def W3 (c : Dev nD) : Valuation τ sig (Elt F) :=
  Function.update (W2 m ρ c) (Proc.devRef .tc main_v2) ((dat1 (V2 m ρ) c).arrAt 2 cfg1.N)
theorem W3_out (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c _ (by decide)).symm)
  | ⟨1, _⟩ => exact ((dat1 (V2 m ρ) c).arrAt_in 1 rfl _).trans ((A_eq1 (V2 m ρ) c 1).trans (W3_of_ne m ρ c _ (by decide)).symm)
  | ⟨2, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-- After the second host stretch (launch 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At launch 2's exit its accumulator's array holds what the pipeline's last write-back leaves, its inputs what they
    held at entry (an input is never written), and every other buffer what it held at entry. -/
def W5 (c : Dev nD) : Valuation τ sig (Elt F) :=
  Function.update (W4 m ρ c) (Proc.devRef .tc main_v4) ((dat2 (V4 m ρ) c).arrAt 2 cfg2.N)
theorem W5_out (c : Dev nD) : W5 m ρ c (Proc.devRef .tc main_v4) = (dat2 (V4 m ρ) c).arrAt 2 cfg2.N := by
  unfold W5; exact Function.update_self ..
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) := by
  match w with
  | ⟨0, _⟩ => exact ((dat2 (V4 m ρ) c).arrAt_in 0 rfl _).trans ((A_eq2 (V4 m ρ) c 0).trans (W5_of_ne m ρ c _ (by decide)).symm)
  | ⟨1, _⟩ => exact ((dat2 (V4 m ρ) c).arrAt_in 1 rfl _).trans ((A_eq2 (V4 m ρ) c 1).trans (W5_of_ne m ρ c _ (by decide)).symm)
  | ⟨2, _⟩ => exact (W5_out m ρ c).symm
theorem hrest2 (c : Dev nD) : ∀ b, b ∉ Finset.univ.image (Pipeline.arrRef spec2) → V5 m ρ c b = V4 m ρ c b :=
  fun b hb => W5_of_ne m ρ c b fun e => hb (Finset.mem_image.mpr ⟨2, Finset.mem_univ _, e.symm⟩)

/-- After the last host stretch: the contents the program ends with. -/
abbrev W6 : Dev nD → Valuation τ sig (Elt F) := fun c => StableHlo.after hostOps3 (W5 m ρ c)

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at `W6`, the generator register at some state. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered from every unscoped buffer at `W0`, left at `W1`. The sample
    matrix's buffer is split between the two input windows at entry and joined back at exit; the generator register
    passes through the body's invariant; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split0 (F := F) (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (V0 m ρ c))
        ⊢ (unscopedBufs c (V1 m ρ c) : sProp 𝕄) :=
      exit_join0 (F := F) (V0 m ρ) (V1 m ρ) c (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W2`, left at `W3`. The sample
    matrix's buffer is split between the two input windows at entry and joined back at exit; the generator register
    passes through the body's invariant; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry_split1 (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V3 m ρ c) : sProp 𝕄) :=
      exit_join1 (F := F) (V2 m ρ) (V3 m ρ) c (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W4`, left at `W5`. Its three
    windows sit on three distinct buffers, each held whole. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Hand

end
-- ==== Proof.Spec.lean ====
/-
  The mathematics both programs compute, on the extended reals.

  For two sample matrices a, b (8192 rows of 128 reals) the kernel matrix has the entry
  exp(-((|a_i|² + |b_j|²) - 2·⟨a_i, b_j⟩) / 128²) at (i, j); `pairSum a b` is the sum of all 8192² entries, and the
  statistic is pairSum x x / 8192² + pairSum y y / 8192² - 2 · (pairSum x y / 8192²).
  The same entry over a pair of 1024-row tiles is `tileKern`, its sum over a tile pair `tileSum`.
  The three float literals (2.0, 16384.0, 67108864.0) are kept as the words both programs print.
-/
import Idealize.ShloMosaic.PureOps.Ideal
import Idealize.ShloMosaic.Lib.ValueIdx

noncomputable section

open scoped BigOperators

namespace Cert.MMD

open Idealize.ShloMosaic Idealize.ShloMosaic.ValueIdx

/-- A whole sample matrix: 8192 rows of 128. -/
abbrev SW : Shape := ⟨2, ![8192, 128]⟩
/-- A tile of it: 1024 rows of 128. -/
abbrev ST : Shape := ⟨2, ![1024, 128]⟩

/-- The literal 2.0. -/
abbrev two : EReal := Ideal.ofBits .f32 0x40000000#32
/-- The literal 16384.0 = 128². -/
abbrev dimSq : EReal := Ideal.ofBits .f32 0x46800000#32
/-- The literal 67108864.0 = 8192². -/
abbrev count : EReal := Ideal.ofBits .f32 0x4C800000#32

/-- One kernel-matrix entry from the two squared norms and the inner product: exp(-((n₁ + n₂) - 2·p) / 128²). -/
def entry (n₁ n₂ p : EReal) : EReal := Ideal.exp (Ideal.div (-((n₁ + n₂) - two * p)) dimSq)

/-- Squared norm of row `i`. -/
def sqn (a : SW.Idx → EReal) (i : Fin 8192) : EReal := ∑ k : Fin 128, a (ix2 i k) * a (ix2 i k)
/-- Inner product of row `i` of `a` with row `j` of `b`. -/
def dot (a b : SW.Idx → EReal) (i j : Fin 8192) : EReal := ∑ k : Fin 128, a (ix2 i k) * b (ix2 j k)
/-- The kernel matrix's entry (i, j). -/
def kern (a b : SW.Idx → EReal) (i j : Fin 8192) : EReal := entry (sqn a i) (sqn b j) (dot a b i j)
/-- The sum of the whole kernel matrix. -/
def pairSum (a b : SW.Idx → EReal) : EReal := ∑ i : Fin 8192, ∑ j : Fin 8192, kern a b i j

/-- The same over a pair of tiles. -/
def tsqn (x : ST.Idx → EReal) (p : Fin 1024) : EReal := ∑ k : Fin 128, x (ix2 p k) * x (ix2 p k)
def tdot (x y : ST.Idx → EReal) (p q : Fin 1024) : EReal := ∑ k : Fin 128, x (ix2 p k) * y (ix2 q k)
def tileKern (x y : ST.Idx → EReal) (p q : Fin 1024) : EReal := entry (tsqn x p) (tsqn y q) (tdot x y p q)
/-- The sum of one 1024×1024 tile of the kernel matrix. -/
def tileSum (x y : ST.Idx → EReal) : EReal := ∑ p : Fin 1024, ∑ q : Fin 1024, tileKern x y p q

/-- Row tile `I` of a whole matrix: rows 1024·I … 1024·I + 1023. -/
def tile (a : SW.Idx → EReal) (I : Fin 8) : ST.Idx → EReal :=
  fun y => a (ix2 (⟨I.val * 1024 + (y 0).val, by have := (y 0).isLt; have := I.isLt; change (y 0).val < 1024 at *; omega⟩ : Fin 8192) (y 1))

/-- The statistic from the three sums: sxx / n² + syy / n² - 2 · (sxy / n²). -/
def mmdOf (sxx syy sxy : EReal) : EReal :=
  (Ideal.div sxx count + Ideal.div syy count) - two * Ideal.div sxy count

/-- The statistic of samples `x` (the kernel's and the reference's second argument) and `y` (their first). -/
def mmd (x y : SW.Idx → EReal) : EReal := mmdOf (pairSum x x) (pairSum y y) (pairSum x y)

end Cert.MMD

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.TileValue.lean ====
/-
  The kernel body's arithmetic at the ideal values, read at its one index.

  For two 1024-row tiles x, y (128 columns) and the running total acc the body computes, over the extended reals with
  every operation exact and the format changes the identity:
  • the 1024×1024 matrix of inner products ⟨x_p, y_q⟩ (a plain matrix product of x with the transposed y into the zero
    accumulator);
  • the squared norms |x_p|² and |y_q|² as row sums of the squares, kept as a column; the second column turned into a
    row; both spread over the 1024×1024 square;
  • at (p, q): exp((0 - ((|x_p|² + |y_q|²) - 2·⟨x_p, y_q⟩)) / 128²), which is the tile pair's kernel entry since
    0 - z = -z;
  • the sum of each row of that matrix, then the sum of the row sums, added to acc.
  So the body's result is acc + (the sum of the tile pair's kernel entries). The value it resets the total to is 0.
  The three launches have the same body.
-/
import proofs.«145707_j71536975282442_1_alg».proof.Proof.Gen.KernelIdeal.Skeleton
import proofs.«145707_j71536975282442_1_alg».proof.Proof.Spec
import proofs.«145707_j71536975282442_1_alg».proof.Proof.LibKeepdims
import proofs.«145707_j71536975282442_1_alg».proof.Proof.LibPlainMatmul
import proofs.«145707_j71536975282442_1_alg».proof.Proof.LibRowBroadcast
import proofs.«145707_j71536975282442_1_alg».proof.Proof.LibAxisSums
import Idealize.ShloMosaic.Lib.Pipeline.Value
import Idealize.ShloMosaic.Lib.ValueIdx
import Idealize.ShloMosaic.PureOps.Ideal.Laws

noncomputable section

open scoped BigOperators

namespace Cert.MMD

open Idealize.ShloMosaic Idealize.ShloMosaic.ValueIdx Cert.KernelIdeal

/-! ## The pieces, each over variables -/

/-- The squared norms of a tile's rows, summed along the row and kept as a column, read at (p, u): |x_p|². -/
theorem sqnCol_apply (x : Vec Ideal S1024x128 .f32) (p : Fin 1024) (u : Fin 1) :
    shapeCast S1024x1 (multiReduction (F := Ideal) .add [1] S1024 (mulf x x) 0x00000000#32
        Gen.reduces_S1024x128_S1024 (.inl rfl) rfl) Gen.shapeCasts_S1024_S1024x1 (ix2 p u) = tsqn x p := by
  refine (Cert.LibKeepdims.shapeCast_a_a1_apply _ _ p u).trans ?_
  refine (Cert.LibKeepdims.multiReduction_add_lastAxis_apply _ _ _ _ _ p).trans ?_
  rfl

/-- That column spread over the columns of the square, read at (p, q): |x_p|². -/
theorem sqnLeft_apply (x : Vec Ideal S1024x128 .f32) (p q : Fin 1024) :
    broadcastTo S1024x1024 (shapeCast S1024x1 (multiReduction (F := Ideal) .add [1] S1024 (mulf x x) 0x00000000#32
        Gen.reduces_S1024x128_S1024 (.inl rfl) rfl) Gen.shapeCasts_S1024_S1024x1) Gen.broadcasts_S1024x1_S1024x1024 (ix2 p q)
      = tsqn x p := by
  refine (Cert.LibKeepdims.broadcastTo_a1_ab_apply _ _ p q 0).trans ?_
  exact sqnCol_apply x p 0

/-- The column turned into a row and spread over the rows of the square, read at (p, q): |y_q|². -/
theorem sqnRight_apply (y : Vec Ideal S1024x128 .f32) (p q : Fin 1024) :
    broadcastTo S1024x1024 (transpose S1x1024 [1, 0] (shapeCast S1024x1 (multiReduction (F := Ideal) .add [1] S1024 (mulf y y) 0x00000000#32
        Gen.reduces_S1024x128_S1024 (.inl rfl) rfl) Gen.shapeCasts_S1024_S1024x1) Gen.transposes_S1024x1_p1_0_S1x1024)
        Gen.broadcasts_S1x1024_S1024x1024 (ix2 p q)
      = tsqn y q := by
  refine (Cert.LibRowBroadcast.broadcastTo_1b_ab_apply _ _ p q 0).trans ?_
  refine (transpose_apply _ _ _ (ix2 (0 : Fin 1) q) (ix2 q (0 : Fin 1)) fun b => ?_).trans ?_
  · match b with
    | ⟨0, _⟩ => rfl
    | ⟨1, _⟩ => rfl
  · exact sqnCol_apply y q 0

/-- The product of x with the transposed y into the zero accumulator, read at (p, q): ⟨x_p, y_q⟩. -/
theorem gram_apply (x y : Vec Ideal S1024x128 .f32) (p q : Fin 1024) :
    matmul (F := Ideal) dot_S1024x128_S128x1024_S1024x1024_1_0_0_1_n_n none
        (truncf .bf16 x Gen.bitsLt_bf16_f32)
        (transpose S128x1024 [1, 0] (truncf .bf16 y Gen.bitsLt_bf16_f32) Gen.transposes_S1024x128_p1_0_S128x1024)
        (constant S1024x1024 .f32 0x00000000#32) (ix2 p q)
      = tdot x y p q := by
  refine (matmul_plain_zero_apply 1024 128 1024 none _ _ p q).trans ?_
  unfold tdot
  refine Finset.sum_congr rfl fun k _ => ?_
  refine congrArg (x (ix2 p k) * ·) ?_
  refine (transpose_apply _ _ _ (ix2 k q) (ix2 q k) fun b => ?_).trans rfl
  match b with
  | ⟨0, _⟩ => rfl
  | ⟨1, _⟩ => rfl

/-- The pointwise part: exp((0 - ((A + B) - 2·M)) / 128²) at an index is the kernel entry of the three values there. -/
theorem entry_apply (A B M : FVec Ideal S1024x1024 .f32) (i : S1024x1024.Idx) :
    exp (divf (subf (broadcast S1024x1024 (Scalar.ofBits (F := Ideal) .f32 0x00000000#32))
        (subf (addf A B) (mulf (broadcast S1024x1024 (Scalar.ofBits (F := Ideal) .f32 0x40000000#32)) M)))
        (broadcast S1024x1024 (Scalar.ofBits (F := Ideal) .f32 0x46800000#32))) i
      = entry (A i) (B i) (M i) := by
  show Ideal.exp (Ideal.div (Ideal.ofBits .f32 0x00000000#32 - ((A i + B i) - Ideal.ofBits .f32 0x40000000#32 * M i))
    (Ideal.ofBits .f32 0x46800000#32)) = _
  rw [Ideal.ofBits_zero_f32, zero_sub]
  rfl

/-! ## The body's two stored values -/

/-- The value the running total is reset to: the zero word, which is 0. -/
theorem pay1_apply (j : Cert.KernelIdeal.S1x1.Idx) : Cert.KernelIdeal.Gen.k0_pay1 (F := Ideal) j = 0 := by
  show Ideal.ofBits .f32 0x00000000#32 = 0
  exact Ideal.ofBits_zero_f32

/-- The body's result: the running total plus the sum of the tile pair's kernel entries. -/
theorem pay2_apply (x y : Vec Ideal Cert.KernelIdeal.S1024x128 .f32) (acc : Vec Ideal Cert.KernelIdeal.S1x1 .f32)
    (j : Cert.KernelIdeal.S1x1.Idx) :
    Cert.KernelIdeal.Gen.k0_pay2 (F := Ideal) x y acc j = acc j + tileSum x y := by
  obtain ⟨u, v, rfl⟩ : ∃ (u v : Fin 1), j = ix2 u v := ⟨j 0, j 1, eq_ix2 j⟩
  unfold Gen.k0_pay2
  dsimp only
  refine (addf_apply _ _ _).trans ?_
  refine congr (congrArg HAdd.hAdd ?_) ?_
  · exact congrFun (shapeCast_self _ _) _
  · refine (Cert.LibKeepdims.shapeCast_a_a1_apply _ _ u v).trans ?_
    refine (Cert.LibAxisSums.multiReduction_add_firstAxis_apply _ _ _ _ _ u).trans ?_
    unfold tileSum
    refine Finset.sum_congr rfl fun p _ => ?_
    refine (Cert.LibKeepdims.shapeCast_a_a1_apply _ _ p u).trans ?_
    refine (Cert.LibKeepdims.multiReduction_add_lastAxis_apply _ _ _ _ _ p).trans ?_
    refine Finset.sum_congr rfl fun q _ => ?_
    refine (entry_apply _ _ _ (ix2 p q)).trans ?_
    unfold tileKern
    exact congr (congr (congrArg entry (sqnLeft_apply x p q)) (sqnRight_apply y p q)) (gram_apply x y p q)

/-- The other two launches store the same two values. -/
theorem k1_pay1_eq : Cert.KernelIdeal.Gen.k1_pay1 (F := Ideal) = Cert.KernelIdeal.Gen.k0_pay1 := rfl
theorem k2_pay1_eq : Cert.KernelIdeal.Gen.k2_pay1 (F := Ideal) = Cert.KernelIdeal.Gen.k0_pay1 := rfl
theorem k1_pay2_eq : Cert.KernelIdeal.Gen.k1_pay2 (F := Ideal) = Cert.KernelIdeal.Gen.k0_pay2 := rfl
theorem k2_pay2_eq : Cert.KernelIdeal.Gen.k2_pay2 (F := Ideal) = Cert.KernelIdeal.Gen.k0_pay2 := rfl

end Cert.MMD

end
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.Acc0.lean ====
/-
  Launch 0: what the accumulator holds, as a number.

  Each case's stores, read back, are the body's arithmetic applied to what the body loaded: at the first point the sum
  payload over the freshly stored zero, at a later point over what the accumulator held. On the extended reals the sum
  payload adds the tile pair's sum of kernel-matrix entries to the accumulator, and the reset payload is zero; so after
  point n the accumulator holds the sum of the tile sums of the points up to n.
-/
import proofs.«145707_j71536975282442_1_alg».proof.Proof.Frame0
import proofs.«145707_j71536975282442_1_alg».proof.Proof.TileValue
import proofs.«145707_j71536975282442_1_alg».proof.Proof.LibRunningTotal
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz0 : (![0, 0] : Fin 2 → Nat) = fun _ => 0 := funext fun a => by fin_cases a <;> rfl

/-- A later point leaves the sum payload of the two tiles over what the accumulator held. -/
theorem out0_later_eq (c : Dev nD) (i : grid0.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : ¬cond0 i) (x0 x1 : Vec F S1024x128 .f32) (xo : Vec F S1x1 .f32) :
    out0_later c i a2 h2 a3 h3 a4 h4 hc x0 x1 xo = k0_pay2 x0 x1 xo := by
  unfold out0_later
  rw [View.read_writes_eq_canon _ _ _ (cover0_later c i a2 h2 a3 h3 a4 h4 hc x0 x1 xo)]
  unfold run0_later
  dsimp only
  rw [View.canon_unit_zero hz0]
  simp only [View.readAt_eq_ld, h2.read_unread, h3.read_unread, h4.read_unread, View.ld_unit_zero (S := S1024x128) hz0, View.ld_unit_zero (S := S1x1) hz0]

/-- The first point leaves the sum payload of the two tiles over the reset payload. -/
theorem out0_first_eq (c : Dev nD) (i : grid0.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : cond0 i) (x0 x1 : Vec F S1024x128 .f32) :
    out0_first c i a2 h2 a3 h3 a4 h4 hc x0 x1 = k0_pay2 x0 x1 (k0_pay1 (F := F)) := by
  unfold out0_first
  rw [View.read_writes_eq_canon _ _ _ (cover0_first c i a2 h2 a3 h3 a4 h4 hc x0 x1)]
  unfold run0_first
  dsimp only
  sl_unfold_words
  rw [View.canon_cons_unit_zero (S := S1x1) hz0, View.readCov_unit_zero (S := S1x1) _ hz0]
  simp only [View.readAt_eq_ld, h2.read_unread, h3.read_unread, View.ld_unit_zero (S := S1024x128) hz0]

/-! ## The running value on the extended reals -/

section IdealSum

open Cert.MMD RunningTotal

variable (V : (c : Dev nD) → (b : Ref sig .tc) → Buf (Elt Ideal) ((c : Thread nD τ).loc b))

/-- The tile pair's sum of kernel-matrix entries at point `t`. -/
def tileTerm0 (c : Dev nD) (t : Fin cfg0.N) : EReal := tileSum (iblk0 (F := Ideal) V c 0 t) (iblk0 (F := Ideal) V c 1 t)

/-- After point `n` the accumulator holds the sum of the tile sums of the points up to `n`: zero plus the first at
    point 0, one more term per later point. -/
theorem accAt0_value (c : Dev nD) : ∀ (n : ℕ) (h : n < cfg0.N) (j : S1x1.Idx),
    accAt0 (F := Ideal) V c n h j = upTo (tileTerm0 V c) n
  | 0, h, j => by
    rw [accAt0_first V c ⟨0, h⟩ rfl, out0_first_eq, pay2_apply, pay1_apply, zero_add, upTo_zero _ h]
    rfl
  | n + 1, h, j => by
    have hN : cfg0.N = 64 := N_0
    have hB : ¬(⟨n + 1, h⟩ : Fin cfg0.N).val % 64 = 0 := by dsimp only; omega
    rw [accAt0_later V c ⟨n + 1, h⟩ hB, out0_later_eq, pay2_apply]
    show accAt0 (F := Ideal) V c n _ j + _ = _
    rw [accAt0_value c n _ j, upTo_succ _ n h]
    rfl

/-- After the last point: the sum of all 64 tile sums. -/
theorem accAt0_last (c : Dev nD) (h : 63 < cfg0.N) (j : S1x1.Idx) :
    accAt0 (F := Ideal) V c 63 h j = ∑ t : Fin cfg0.N, tileTerm0 V c t := by
  rw [accAt0_value V c 63 h j]
  exact upTo_last _ 63 (by rw [show cfg0.N = 64 from N_0])

end IdealSum

end Cert.KernelIdeal.Hand

end
-- ==== Proof.Acc1.lean ====
/-
  Launch 1: what the accumulator holds, as a number.

  Each case's stores, read back, are the body's arithmetic applied to what the body loaded: at the first point the sum
  payload over the freshly stored zero, at a later point over what the accumulator held. On the extended reals the sum
  payload adds the tile pair's sum of kernel-matrix entries to the accumulator, and the reset payload is zero; so after
  point n the accumulator holds the sum of the tile sums of the points up to n.
-/
import proofs.«145707_j71536975282442_1_alg».proof.Proof.Frame1
import proofs.«145707_j71536975282442_1_alg».proof.Proof.TileValue
import proofs.«145707_j71536975282442_1_alg».proof.Proof.LibRunningTotal
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz1 : (![0, 0] : Fin 2 → Nat) = fun _ => 0 := funext fun a => by fin_cases a <;> rfl

/-- A later point leaves the sum payload of the two tiles over what the accumulator held. -/
theorem out1_later_eq (c : Dev nD) (i : grid1.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : ¬cond1 i) (x0 x1 : Vec F S1024x128 .f32) (xo : Vec F S1x1 .f32) :
    out1_later c i a2 h2 a3 h3 a4 h4 hc x0 x1 xo = k1_pay2 x0 x1 xo := by
  unfold out1_later
  rw [View.read_writes_eq_canon _ _ _ (cover1_later c i a2 h2 a3 h3 a4 h4 hc x0 x1 xo)]
  unfold run1_later
  dsimp only
  rw [View.canon_unit_zero hz1]
  simp only [View.readAt_eq_ld, h2.read_unread, h3.read_unread, h4.read_unread, View.ld_unit_zero (S := S1024x128) hz1, View.ld_unit_zero (S := S1x1) hz1]

/-- The first point leaves the sum payload of the two tiles over the reset payload. -/
theorem out1_first_eq (c : Dev nD) (i : grid1.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : cond1 i) (x0 x1 : Vec F S1024x128 .f32) :
    out1_first c i a2 h2 a3 h3 a4 h4 hc x0 x1 = k1_pay2 x0 x1 (k1_pay1 (F := F)) := by
  unfold out1_first
  rw [View.read_writes_eq_canon _ _ _ (cover1_first c i a2 h2 a3 h3 a4 h4 hc x0 x1)]
  unfold run1_first
  dsimp only
  sl_unfold_words
  rw [View.canon_cons_unit_zero (S := S1x1) hz1, View.readCov_unit_zero (S := S1x1) _ hz1]
  simp only [View.readAt_eq_ld, h2.read_unread, h3.read_unread, View.ld_unit_zero (S := S1024x128) hz1]

/-! ## The running value on the extended reals -/

section IdealSum

open Cert.MMD RunningTotal

variable (V : (c : Dev nD) → (b : Ref sig .tc) → Buf (Elt Ideal) ((c : Thread nD τ).loc b))

/-- The tile pair's sum of kernel-matrix entries at point `t`. -/
def tileTerm1 (c : Dev nD) (t : Fin cfg1.N) : EReal := tileSum (iblk1 (F := Ideal) V c 0 t) (iblk1 (F := Ideal) V c 1 t)

/-- After point `n` the accumulator holds the sum of the tile sums of the points up to `n`: zero plus the first at
    point 0, one more term per later point. -/
theorem accAt1_value (c : Dev nD) : ∀ (n : ℕ) (h : n < cfg1.N) (j : S1x1.Idx),
    accAt1 (F := Ideal) V c n h j = upTo (tileTerm1 V c) n
  | 0, h, j => by
    rw [accAt1_first V c ⟨0, h⟩ rfl, out1_first_eq, k1_pay2_eq, k1_pay1_eq, pay2_apply, pay1_apply, zero_add, upTo_zero _ h]
    rfl
  | n + 1, h, j => by
    have hN : cfg1.N = 64 := N_1
    have hB : ¬(⟨n + 1, h⟩ : Fin cfg1.N).val % 64 = 0 := by dsimp only; omega
    rw [accAt1_later V c ⟨n + 1, h⟩ hB, out1_later_eq, k1_pay2_eq, pay2_apply]
    show accAt1 (F := Ideal) V c n _ j + _ = _
    rw [accAt1_value c n _ j, upTo_succ _ n h]
    rfl

/-- After the last point: the sum of all 64 tile sums. -/
theorem accAt1_last (c : Dev nD) (h : 63 < cfg1.N) (j : S1x1.Idx) :
    accAt1 (F := Ideal) V c 63 h j = ∑ t : Fin cfg1.N, tileTerm1 V c t := by
  rw [accAt1_value V c 63 h j]
  exact upTo_last _ 63 (by rw [show cfg1.N = 64 from N_1])

end IdealSum

end Cert.KernelIdeal.Hand

end
-- ==== Proof.Acc2.lean ====
/-
  Launch 2: what the accumulator holds, as a number.

  Each case's stores, read back, are the body's arithmetic applied to what the body loaded: at the first point the sum
  payload over the freshly stored zero, at a later point over what the accumulator held. On the extended reals the sum
  payload adds the tile pair's sum of kernel-matrix entries to the accumulator, and the reset payload is zero; so after
  point n the accumulator holds the sum of the tile sums of the points up to n.
-/
import proofs.«145707_j71536975282442_1_alg».proof.Proof.Frame2
import proofs.«145707_j71536975282442_1_alg».proof.Proof.TileValue
import proofs.«145707_j71536975282442_1_alg».proof.Proof.LibRunningTotal
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

/-- A later point leaves the sum payload of the two tiles over what the accumulator held. -/
theorem out2_later_eq (c : Dev nD) (i : grid2.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : ¬cond2 i) (x0 x1 : Vec F S1024x128 .f32) (xo : Vec F S1x1 .f32) :
    out2_later c i a2 h2 a3 h3 a4 h4 hc x0 x1 xo = k2_pay2 x0 x1 xo := by
  unfold out2_later
  rw [View.read_writes_eq_canon _ _ _ (cover2_later c i a2 h2 a3 h3 a4 h4 hc x0 x1 xo)]
  unfold run2_later
  dsimp only
  rw [View.canon_unit_zero hz2]
  simp only [View.readAt_eq_ld, h2.read_unread, h3.read_unread, h4.read_unread, View.ld_unit_zero (S := S1024x128) hz2, View.ld_unit_zero (S := S1x1) hz2]

/-- The first point leaves the sum payload of the two tiles over the reset payload. -/
theorem out2_first_eq (c : Dev nD) (i : grid2.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : cond2 i) (x0 x1 : Vec F S1024x128 .f32) :
    out2_first c i a2 h2 a3 h3 a4 h4 hc x0 x1 = k2_pay2 x0 x1 (k2_pay1 (F := F)) := by
  unfold out2_first
  rw [View.read_writes_eq_canon _ _ _ (cover2_first c i a2 h2 a3 h3 a4 h4 hc x0 x1)]
  unfold run2_first
  dsimp only
  sl_unfold_words
  rw [View.canon_cons_unit_zero (S := S1x1) hz2, View.readCov_unit_zero (S := S1x1) _ hz2]
  simp only [View.readAt_eq_ld, h2.read_unread, h3.read_unread, View.ld_unit_zero (S := S1024x128) hz2]

/-! ## The running value on the extended reals -/

section IdealSum

open Cert.MMD RunningTotal

variable (V : (c : Dev nD) → (b : Ref sig .tc) → Buf (Elt Ideal) ((c : Thread nD τ).loc b))

/-- The tile pair's sum of kernel-matrix entries at point `t`. -/
def tileTerm2 (c : Dev nD) (t : Fin cfg2.N) : EReal := tileSum (iblk2 (F := Ideal) V c 0 t) (iblk2 (F := Ideal) V c 1 t)

/-- After point `n` the accumulator holds the sum of the tile sums of the points up to `n`: zero plus the first at
    point 0, one more term per later point. -/
theorem accAt2_value (c : Dev nD) : ∀ (n : ℕ) (h : n < cfg2.N) (j : S1x1.Idx),
    accAt2 (F := Ideal) V c n h j = upTo (tileTerm2 V c) n
  | 0, h, j => by
    rw [accAt2_first V c ⟨0, h⟩ rfl, out2_first_eq, k2_pay2_eq, k2_pay1_eq, pay2_apply, pay1_apply, zero_add, upTo_zero _ h]
    rfl
  | n + 1, h, j => by
    have hN : cfg2.N = 64 := N_2
    have hB : ¬(⟨n + 1, h⟩ : Fin cfg2.N).val % 64 = 0 := by dsimp only; omega
    rw [accAt2_later V c ⟨n + 1, h⟩ hB, out2_later_eq, k2_pay2_eq, pay2_apply]
    show accAt2 (F := Ideal) V c n _ j + _ = _
    rw [accAt2_value c n _ j, upTo_succ _ n h]
    rfl

/-- After the last point: the sum of all 64 tile sums. -/
theorem accAt2_last (c : Dev nD) (h : 63 < cfg2.N) (j : S1x1.Idx) :
    accAt2 (F := Ideal) V c 63 h j = ∑ t : Fin cfg2.N, tileTerm2 V c t := by
  rw [accAt2_value V c 63 h j]
  exact upTo_last _ 63 (by rw [show cfg2.N = 64 from N_2])

end IdealSum

end Cert.KernelIdeal.Hand

end
-- ==== Proof.Blocks.lean ====
/-
  The input windows' blocks as row tiles of the whole sample matrices.

  Each launch runs over an 8×8 grid counted row-major by t < 64. Window 0's index map sends point t to block row t / 8
  and window 1's to block row t % 8 (block column 0 in both), and a block's entry (p, k) sits in the array at row
  (block row)·1024 + p, column k. So window 0's block at point t is row tile t / 8 of its array and window 1's is row
  tile t % 8 of its array — for the three launches the arrays are (second, second), (first, first), (second, first)
  argument. The index maps are decided once over the 64 points.
-/
import proofs.«145707_j71536975282442_1_alg».proof.Proof.Frame0
import proofs.«145707_j71536975282442_1_alg».proof.Proof.Frame1
import proofs.«145707_j71536975282442_1_alg».proof.Proof.Frame2
import proofs.«145707_j71536975282442_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Launch 0 -/

/-- Window 0's block index at point t: (t / 8, 0). -/
theorem idx0_0 : ∀ t : Fin cfg0.N, win0_0.index t (0 : Fin 2) = t.val / 8 ∧ win0_0.index t (1 : Fin 2) = 0 :=
  (by decide +kernel : ∀ t : Fin grid0.N, _)

/-- Window 1's block index at point t: (t % 8, 0). -/
theorem idx0_1 : ∀ t : Fin cfg0.N, win0_1.index t (0 : Fin 2) = t.val % 8 ∧ win0_1.index t (1 : Fin 2) = 0 :=
  (by decide +kernel : ∀ t : Fin grid0.N, _)

/-- Window 0's block at point t is row tile t / 8 of the second argument. -/
theorem iblk0_0_tile (V : (c : Dev nD) → (b : Ref sig .tc) → Buf (Elt Ideal) ((c : Thread nD τ).loc b)) (c : Dev nD) (t : Fin cfg0.N) :
    iblk0 (F := Ideal) V c 0 t = Cert.MMD.tile (V c main_arg1) ⟨t.val / 8, by have := t.isLt; have h : cfg0.N = 64 := N_0; omega⟩ := by
  funext y
  unfold iblk0 Cert.MMD.tile
  rw [View.read_apply]
  show V c main_arg1 _ = V c main_arg1 _
  congr 1
  funext a
  apply Fin.ext
  match a with
  | ⟨0, _⟩ => show win0_0.index t 0 * 1024 + 1 * (y 0).val = t.val / 8 * 1024 + (y 0).val; rw [(idx0_0 t).1]; omega
  | ⟨1, _⟩ => show win0_0.index t 1 * 128 + 1 * (y 1).val = (y 1).val; rw [(idx0_0 t).2]; omega

/-- Window 1's block at point t is row tile t % 8 of the second argument. -/
theorem iblk0_1_tile (V : (c : Dev nD) → (b : Ref sig .tc) → Buf (Elt Ideal) ((c : Thread nD τ).loc b)) (c : Dev nD) (t : Fin cfg0.N) :
    iblk0 (F := Ideal) V c 1 t = Cert.MMD.tile (V c main_arg1) ⟨t.val % 8, by have := t.isLt; have h : cfg0.N = 64 := N_0; omega⟩ := by
  funext y
  unfold iblk0 Cert.MMD.tile
  rw [View.read_apply]
  show V c main_arg1 _ = V c main_arg1 _
  congr 1
  funext a
  apply Fin.ext
  match a with
  | ⟨0, _⟩ => show win0_1.index t 0 * 1024 + 1 * (y 0).val = t.val % 8 * 1024 + (y 0).val; rw [(idx0_1 t).1]; omega
  | ⟨1, _⟩ => show win0_1.index t 1 * 128 + 1 * (y 1).val = (y 1).val; rw [(idx0_1 t).2]; omega

/-! ## Launch 1 -/

/-- Window 0's block index at point t: (t / 8, 0). -/
theorem idx1_0 : ∀ t : Fin cfg1.N, win1_0.index t (0 : Fin 2) = t.val / 8 ∧ win1_0.index t (1 : Fin 2) = 0 :=
  (by decide +kernel : ∀ t : Fin grid1.N, _)

/-- Window 1's block index at point t: (t % 8, 0). -/
theorem idx1_1 : ∀ t : Fin cfg1.N, win1_1.index t (0 : Fin 2) = t.val % 8 ∧ win1_1.index t (1 : Fin 2) = 0 :=
  (by decide +kernel : ∀ t : Fin grid1.N, _)

/-- Window 0's block at point t is row tile t / 8 of the first argument. -/
theorem iblk1_0_tile (V : (c : Dev nD) → (b : Ref sig .tc) → Buf (Elt Ideal) ((c : Thread nD τ).loc b)) (c : Dev nD) (t : Fin cfg1.N) :
    iblk1 (F := Ideal) V c 0 t = Cert.MMD.tile (V c main_arg0) ⟨t.val / 8, by have := t.isLt; have h : cfg1.N = 64 := N_1; omega⟩ := by
  funext y
  unfold iblk1 Cert.MMD.tile
  rw [View.read_apply]
  show V c main_arg0 _ = V c main_arg0 _
  congr 1
  funext a
  apply Fin.ext
  match a with
  | ⟨0, _⟩ => show win1_0.index t 0 * 1024 + 1 * (y 0).val = t.val / 8 * 1024 + (y 0).val; rw [(idx1_0 t).1]; omega
  | ⟨1, _⟩ => show win1_0.index t 1 * 128 + 1 * (y 1).val = (y 1).val; rw [(idx1_0 t).2]; omega

/-- Window 1's block at point t is row tile t % 8 of the first argument. -/
theorem iblk1_1_tile (V : (c : Dev nD) → (b : Ref sig .tc) → Buf (Elt Ideal) ((c : Thread nD τ).loc b)) (c : Dev nD) (t : Fin cfg1.N) :
    iblk1 (F := Ideal) V c 1 t = Cert.MMD.tile (V c main_arg0) ⟨t.val % 8, by have := t.isLt; have h : cfg1.N = 64 := N_1; omega⟩ := by
  funext y
  unfold iblk1 Cert.MMD.tile
  rw [View.read_apply]
  show V c main_arg0 _ = V c main_arg0 _
  congr 1
  funext a
  apply Fin.ext
  match a with
  | ⟨0, _⟩ => show win1_1.index t 0 * 1024 + 1 * (y 0).val = t.val % 8 * 1024 + (y 0).val; rw [(idx1_1 t).1]; omega
  | ⟨1, _⟩ => show win1_1.index t 1 * 128 + 1 * (y 1).val = (y 1).val; rw [(idx1_1 t).2]; omega

/-! ## Launch 2 -/

/-- Window 0's block index at point t: (t / 8, 0). -/
theorem idx2_0 : ∀ t : Fin cfg2.N, win2_0.index t (0 : Fin 2) = t.val / 8 ∧ win2_0.index t (1 : Fin 2) = 0 :=
  (by decide +kernel : ∀ t : Fin grid2.N, _)

/-- Window 1's block index at point t: (t % 8, 0). -/
theorem idx2_1 : ∀ t : Fin cfg2.N, win2_1.index t (0 : Fin 2) = t.val % 8 ∧ win2_1.index t (1 : Fin 2) = 0 :=
  (by decide +kernel : ∀ t : Fin grid2.N, _)

/-- Window 0's block at point t is row tile t / 8 of the second argument. -/
theorem iblk2_0_tile (V : (c : Dev nD) → (b : Ref sig .tc) → Buf (Elt Ideal) ((c : Thread nD τ).loc b)) (c : Dev nD) (t : Fin cfg2.N) :
    iblk2 (F := Ideal) V c 0 t = Cert.MMD.tile (V c main_arg1) ⟨t.val / 8, by have := t.isLt; have h : cfg2.N = 64 := N_2; omega⟩ := by
  funext y
  unfold iblk2 Cert.MMD.tile
  rw [View.read_apply]
  show V c main_arg1 _ = V c main_arg1 _
  congr 1
  funext a
  apply Fin.ext
  match a with
  | ⟨0, _⟩ => show win2_0.index t 0 * 1024 + 1 * (y 0).val = t.val / 8 * 1024 + (y 0).val; rw [(idx2_0 t).1]; omega
  | ⟨1, _⟩ => show win2_0.index t 1 * 128 + 1 * (y 1).val = (y 1).val; rw [(idx2_0 t).2]; omega

/-- Window 1's block at point t is row tile t % 8 of the first argument. -/
theorem iblk2_1_tile (V : (c : Dev nD) → (b : Ref sig .tc) → Buf (Elt Ideal) ((c : Thread nD τ).loc b)) (c : Dev nD) (t : Fin cfg2.N) :
    iblk2 (F := Ideal) V c 1 t = Cert.MMD.tile (V c main_arg0) ⟨t.val % 8, by have := t.isLt; have h : cfg2.N = 64 := N_2; omega⟩ := by
  funext y
  unfold iblk2 Cert.MMD.tile
  rw [View.read_apply]
  show V c main_arg0 _ = V c main_arg0 _
  congr 1
  funext a
  apply Fin.ext
  match a with
  | ⟨0, _⟩ => show win2_1.index t 0 * 1024 + 1 * (y 0).val = t.val % 8 * 1024 + (y 0).val; rw [(idx2_1 t).1]; omega
  | ⟨1, _⟩ => show win2_1.index t 1 * 128 + 1 * (y 1).val = (y 1).val; rw [(idx2_1 t).2]; omega

end Cert.KernelIdeal.Hand

end
-- ==== Proof.Final.lean ====
/-
  What the accumulator's array ends holding, launch by launch.

  The accumulator's window is the whole 1×1 array: its block index is (0, 0) at every point, and it is written back
  after the last of the 64 points only. So the one write-back writes the running value after point 63 over the whole
  array, and the array ends holding exactly that value.
-/
import proofs.«145707_j71536975282442_1_alg».proof.Proof.Frame0
import proofs.«145707_j71536975282442_1_alg».proof.Proof.Frame1
import proofs.«145707_j71536975282442_1_alg».proof.Proof.Frame2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Launch 0 -/

/-- The last point of launch 0's grid. -/
abbrev last0 : Fin cfg0.N := ⟨63, by rw [show cfg0.N = 64 from N_0]; decide⟩

/-- The running value after the last point, as contents of the accumulator's array (its one block IS the array). -/
abbrev result0 (c : Dev nD) : Buf (Elt F) ((c : Thread nD τ).loc main_v0) :=
  accAt0 V c 63 (by rw [show cfg0.N = 64 from N_0]; decide)

/-- Block (0, 0) of the 1×1 array, read through zero offsets, is the array: whatever the buffer holds at the last
    point, the part the write-back moves is that array's block. -/
theorem cut_last0 (c : Dev nD) (R : Buf (Elt F) ((c : Thread nD τ).loc main_v0)) :
    (cfg0.win 2).cut (grid0.coords last0) R = ((cfg0.win 2).blk last0).view.read (Elt F) R := by
  have hz : (fun a => win0_2.index last0 a * main_v0.ty.shape.size a) = fun _ => 0 :=
    funext fun a => by fin_cases a <;> decide
  exact (Memref.read_access_unit_zero (Elt F) main_v0 hz (fun a => by rw [congrFun hz a]; simp) R).symm

/-- The one write-back, after point 63, writes the running value. -/
theorem flushed0_eq (c : Dev nD) (t : Fin cfg0.N) (hf : (cfg0.win 2).flush t = true) :
    (dat0 V c).flushed 2 t = ((cfg0.win 2).blk t).view.read (Elt F) (result0 V c) := by
  have hN : cfg0.N = 64 := N_0
  have h63 : t.val = 63 := by have := (flush0_2 t).mp hf; have := t.isLt; omega
  obtain rfl : t = last0 := Fin.ext h63
  show (cfg0.win 2).cut (grid0.coords last0) ((dat0 V c).after 2 last0) = _
  rw [after0_2]
  exact cut_last0 c (result0 V c)

/-- Point 63's block covers the 1×1 array, so the array ends holding the running value after point 63. -/
theorem final0 (V : (c : Dev nD) → (b : Ref sig .tc) → Buf (Elt F) ((c : Thread nD τ).loc b)) (c : Dev nD) :
    (dat0 V c).arrAt 2 cfg0.N = (accAt0 V c 63 (by rw [show cfg0.N = 64 from N_0]; decide) : Buf (Elt F) ((c : Thread nD τ).loc main_v0)) :=
  (dat0 V c).arrAt_eq_of_cover 2 (result0 V c) (flushed0_eq V c) fun i =>
    ⟨last0, (flush0_2 last0).mpr rfl, by
      show i ∈ ((View.whole main_v0).slice (win0_2.rect last0)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index last0 0 * win0_2.size 0 ≤ (i 0 : Nat)
          ∧ (i 0 : Nat) < win0_2.index last0 0 * win0_2.size 0 + win0_2.xsize (grid0.coords last0) 0
        rw [show win0_2.index last0 0 * win0_2.size 0 = 0 from by decide +kernel,
          show win0_2.xsize (grid0.coords last0) 0 = 1 from by decide +kernel]
        omega
      | ⟨1, _⟩ =>
        show win0_2.index last0 1 * win0_2.size 1 ≤ (i 1 : Nat)
          ∧ (i 1 : Nat) < win0_2.index last0 1 * win0_2.size 1 + win0_2.xsize (grid0.coords last0) 1
        rw [show win0_2.index last0 1 * win0_2.size 1 = 0 from by decide +kernel,
          show win0_2.xsize (grid0.coords last0) 1 = 1 from by decide +kernel]
        omega⟩

/-! ## Launch 1 -/

/-- The last point of launch 1's grid. -/
abbrev last1 : Fin cfg1.N := ⟨63, by rw [show cfg1.N = 64 from N_1]; decide⟩

/-- The running value after the last point, as contents of the accumulator's array (its one block IS the array). -/
abbrev result1 (c : Dev nD) : Buf (Elt F) ((c : Thread nD τ).loc main_v2) :=
  accAt1 V c 63 (by rw [show cfg1.N = 64 from N_1]; decide)

/-- Block (0, 0) of the 1×1 array, read through zero offsets, is the array: whatever the buffer holds at the last
    point, the part the write-back moves is that array's block. -/
theorem cut_last1 (c : Dev nD) (R : Buf (Elt F) ((c : Thread nD τ).loc main_v2)) :
    (cfg1.win 2).cut (grid1.coords last1) R = ((cfg1.win 2).blk last1).view.read (Elt F) R := by
  have hz : (fun a => win1_2.index last1 a * main_v2.ty.shape.size a) = fun _ => 0 :=
    funext fun a => by fin_cases a <;> decide
  exact (Memref.read_access_unit_zero (Elt F) main_v2 hz (fun a => by rw [congrFun hz a]; simp) R).symm

/-- The one write-back, after point 63, writes the running value. -/
theorem flushed1_eq (c : Dev nD) (t : Fin cfg1.N) (hf : (cfg1.win 2).flush t = true) :
    (dat1 V c).flushed 2 t = ((cfg1.win 2).blk t).view.read (Elt F) (result1 V c) := by
  have hN : cfg1.N = 64 := N_1
  have h63 : t.val = 63 := by have := (flush1_2 t).mp hf; have := t.isLt; omega
  obtain rfl : t = last1 := Fin.ext h63
  show (cfg1.win 2).cut (grid1.coords last1) ((dat1 V c).after 2 last1) = _
  rw [after1_2]
  exact cut_last1 c (result1 V c)

/-- Point 63's block covers the 1×1 array, so the array ends holding the running value after point 63. -/
theorem final1 (V : (c : Dev nD) → (b : Ref sig .tc) → Buf (Elt F) ((c : Thread nD τ).loc b)) (c : Dev nD) :
    (dat1 V c).arrAt 2 cfg1.N = (accAt1 V c 63 (by rw [show cfg1.N = 64 from N_1]; decide) : Buf (Elt F) ((c : Thread nD τ).loc main_v2)) :=
  (dat1 V c).arrAt_eq_of_cover 2 (result1 V c) (flushed1_eq V c) fun i =>
    ⟨last1, (flush1_2 last1).mpr rfl, by
      show i ∈ ((View.whole main_v2).slice (win1_2.rect last1)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index last1 0 * win1_2.size 0 ≤ (i 0 : Nat)
          ∧ (i 0 : Nat) < win1_2.index last1 0 * win1_2.size 0 + win1_2.xsize (grid1.coords last1) 0
        rw [show win1_2.index last1 0 * win1_2.size 0 = 0 from by decide +kernel,
          show win1_2.xsize (grid1.coords last1) 0 = 1 from by decide +kernel]
        omega
      | ⟨1, _⟩ =>
        show win1_2.index last1 1 * win1_2.size 1 ≤ (i 1 : Nat)
          ∧ (i 1 : Nat) < win1_2.index last1 1 * win1_2.size 1 + win1_2.xsize (grid1.coords last1) 1
        rw [show win1_2.index last1 1 * win1_2.size 1 = 0 from by decide +kernel,
          show win1_2.xsize (grid1.coords last1) 1 = 1 from by decide +kernel]
        omega⟩

/-! ## Launch 2 -/

/-- The last point of launch 2's grid. -/
abbrev last2 : Fin cfg2.N := ⟨63, by rw [show cfg2.N = 64 from N_2]; decide⟩

/-- The running value after the last point, as contents of the accumulator's array (its one block IS the array). -/
abbrev result2 (c : Dev nD) : Buf (Elt F) ((c : Thread nD τ).loc main_v4) :=
  accAt2 V c 63 (by rw [show cfg2.N = 64 from N_2]; decide)

/-- Block (0, 0) of the 1×1 array, read through zero offsets, is the array: whatever the buffer holds at the last
    point, the part the write-back moves is that array's block. -/
theorem cut_last2 (c : Dev nD) (R : Buf (Elt F) ((c : Thread nD τ).loc main_v4)) :
    (cfg2.win 2).cut (grid2.coords last2) R = ((cfg2.win 2).blk last2).view.read (Elt F) R := by
  have hz : (fun a => win2_2.index last2 a * main_v4.ty.shape.size a) = fun _ => 0 :=
    funext fun a => by fin_cases a <;> decide
  exact (Memref.read_access_unit_zero (Elt F) main_v4 hz (fun a => by rw [congrFun hz a]; simp) R).symm

/-- The one write-back, after point 63, writes the running value. -/
theorem flushed2_eq (c : Dev nD) (t : Fin cfg2.N) (hf : (cfg2.win 2).flush t = true) :
    (dat2 V c).flushed 2 t = ((cfg2.win 2).blk t).view.read (Elt F) (result2 V c) := by
  have hN : cfg2.N = 64 := N_2
  have h63 : t.val = 63 := by have := (flush2_2 t).mp hf; have := t.isLt; omega
  obtain rfl : t = last2 := Fin.ext h63
  show (cfg2.win 2).cut (grid2.coords last2) ((dat2 V c).after 2 last2) = _
  rw [after2_2]
  exact cut_last2 c (result2 V c)

/-- Point 63's block covers the 1×1 array, so the array ends holding the running value after point 63. -/
theorem final2 (V : (c : Dev nD) → (b : Ref sig .tc) → Buf (Elt F) ((c : Thread nD τ).loc b)) (c : Dev nD) :
    (dat2 V c).arrAt 2 cfg2.N = (accAt2 V c 63 (by rw [show cfg2.N = 64 from N_2]; decide) : Buf (Elt F) ((c : Thread nD τ).loc main_v4)) :=
  (dat2 V c).arrAt_eq_of_cover 2 (result2 V c) (flushed2_eq V c) fun i =>
    ⟨last2, (flush2_2 last2).mpr rfl, by
      show i ∈ ((View.whole main_v4).slice (win2_2.rect last2)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index last2 0 * win2_2.size 0 ≤ (i 0 : Nat)
          ∧ (i 0 : Nat) < win2_2.index last2 0 * win2_2.size 0 + win2_2.xsize (grid2.coords last2) 0
        rw [show win2_2.index last2 0 * win2_2.size 0 = 0 from by decide +kernel,
          show win2_2.xsize (grid2.coords last2) 0 = 1 from by decide +kernel]
        omega
      | ⟨1, _⟩ =>
        show win2_2.index last2 1 * win2_2.size 1 ≤ (i 1 : Nat)
          ∧ (i 1 : Nat) < win2_2.index last2 1 * win2_2.size 1 + win2_2.xsize (grid2.coords last2) 1
        rw [show win2_2.index last2 1 * win2_2.size 1 = 0 from by decide +kernel,
          show win2_2.xsize (grid2.coords last2) 1 = 1 from by decide +kernel]
        omega⟩

end Cert.KernelIdeal.Hand

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.TileLaw.lean ====
/-
  The 8192×8192 kernel matrix is covered by the 8×8 grid of its 1024×1024 tiles.

  Row p of row tile I of a matrix is row I·1024 + p of the matrix, so the squared norm of a tile's row, the inner
  product of two tiles' rows and hence the kernel entry of a tile pair (I, J) at (p, q) are those of the whole matrices
  at (I·1024 + p, J·1024 + q). The sum of the whole matrix is therefore the sum over the 64 tile pairs, counted
  row-major by t = 8·I + J, of each pair's tile sum. Only commutativity and associativity of + are used.
-/
import proofs.«145707_j71536975282442_1_alg».proof.Proof.Spec
import proofs.«145707_j71536975282442_1_alg».proof.Proof.LibTileSum

noncomputable section

open scoped BigOperators

namespace Cert.MMD

open Idealize.ShloMosaic Idealize.ShloMosaic.ValueIdx

/-- Eight tiles of 1024 rows make the 8192 rows. -/
theorem rows_eq : 8 * 1024 = 8192 := rfl

/-- Entry (p, k) of row tile I is entry (I·1024 + p, k) of the whole matrix. -/
theorem tile_apply (a : SW.Idx → EReal) (I : Fin 8) (p : Fin 1024) (k : Fin 128) :
    tile a I (ix2 p k) = a (ix2 (TileSum.idx rows_eq I p) k) := rfl

/-- The squared norm of row p of tile I is that of row I·1024 + p. -/
theorem tsqn_tile (a : SW.Idx → EReal) (I : Fin 8) (p : Fin 1024) :
    tsqn (tile a I) p = sqn a (TileSum.idx rows_eq I p) := by
  unfold tsqn sqn
  exact Finset.sum_congr rfl fun k _ => by rw [tile_apply]

/-- The inner product of row p of tile I of a with row q of tile J of b is that of rows I·1024 + p and J·1024 + q. -/
theorem tdot_tile (a b : SW.Idx → EReal) (I J : Fin 8) (p q : Fin 1024) :
    tdot (tile a I) (tile b J) p q = dot a b (TileSum.idx rows_eq I p) (TileSum.idx rows_eq J q) := by
  unfold tdot dot
  exact Finset.sum_congr rfl fun k _ => by rw [tile_apply, tile_apply]

/-- The kernel entry (p, q) of the tile pair (I, J) is the whole matrix's entry (I·1024 + p, J·1024 + q). -/
theorem tileKern_tile (a b : SW.Idx → EReal) (I J : Fin 8) (p q : Fin 1024) :
    tileKern (tile a I) (tile b J) p q = kern a b (TileSum.idx rows_eq I p) (TileSum.idx rows_eq J q) := by
  unfold tileKern kern
  rw [tsqn_tile, tsqn_tile, tdot_tile]

/-- The tile sums of the 64 tile pairs, counted row-major, add up to the sum of the whole kernel matrix. -/
theorem sum_tiles (a b : SW.Idx → EReal) :
    ∑ t : Fin 64, tileSum (tile a ⟨t.val / 8, by have := t.isLt; omega⟩) (tile b ⟨t.val % 8, by have := t.isLt; omega⟩) = pairSum a b := by
  refine (TileSum.sum_counter (show 8 * 8 = 64 from rfl) (fun I J => tileSum (tile a I) (tile b J))
    (fun t => ⟨t.val / 8, by have := t.isLt; omega⟩) (fun t => ⟨t.val % 8, by have := t.isLt; omega⟩)
    (fun _ => rfl) (fun _ => rfl)).trans ?_
  unfold pairSum
  rw [TileSum.sum_matrix rows_eq rows_eq (kern a b)]
  refine Finset.sum_congr rfl fun I _ => Finset.sum_congr rfl fun J _ => ?_
  unfold tileSum
  exact Finset.sum_congr rfl fun p _ => Finset.sum_congr rfl fun q _ => tileKern_tile a b I J p q

end Cert.MMD

end
-- ==== Proof.Sums.lean ====
/-
  What each launch leaves in its accumulator array, on the extended reals: the sum of the whole 8192×8192 kernel
  matrix of the launch's two sample matrices.

  The array ends at the running value after the last grid point, which is the sum over the 64 grid points of the tile
  pair's sum; window 0's block at point t is row tile t / 8 of its matrix and window 1's is row tile t % 8; and the 64
  tile sums add up to the whole matrix's sum.
-/
import proofs.«145707_j71536975282442_1_alg».proof.Proof.Acc0
import proofs.«145707_j71536975282442_1_alg».proof.Proof.Acc1
import proofs.«145707_j71536975282442_1_alg».proof.Proof.Acc2
import proofs.«145707_j71536975282442_1_alg».proof.Proof.Blocks
import proofs.«145707_j71536975282442_1_alg».proof.Proof.Final
import proofs.«145707_j71536975282442_1_alg».proof.Proof.TileLaw

set_option maxRecDepth 16384

noncomputable section

namespace Cert.KernelIdeal.Hand

open Cert.KernelIdeal Cert.KernelIdeal.Gen Cert.MMD
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Launch 0's accumulator array ends at the sum of the whole kernel matrix of its two sample matrices. -/
theorem arr0_value (c : Dev nD) (j : S1x1.Idx) :
    ((dat0 (F := Ideal) V c).arrAt 2 cfg0.N : Buf (Elt Ideal) ((c : Thread nD τ).loc main_v0)) j = pairSum (V c main_arg1) (V c main_arg1) := by
  rw [final0 V c, accAt0_last V c _ j]
  unfold tileTerm0
  simp only [iblk0_0_tile, iblk0_1_tile]
  rw [← Fin.sum_congr' _ (N_0.symm : 64 = cfg0.N)]
  exact sum_tiles _ _

/-- Launch 1's accumulator array ends at the sum of the whole kernel matrix of its two sample matrices. -/
theorem arr1_value (c : Dev nD) (j : S1x1.Idx) :
    ((dat1 (F := Ideal) V c).arrAt 2 cfg1.N : Buf (Elt Ideal) ((c : Thread nD τ).loc main_v2)) j = pairSum (V c main_arg0) (V c main_arg0) := by
  rw [final1 V c, accAt1_last V c _ j]
  unfold tileTerm1
  simp only [iblk1_0_tile, iblk1_1_tile]
  rw [← Fin.sum_congr' _ (N_1.symm : 64 = cfg1.N)]
  exact sum_tiles _ _

/-- Launch 2's accumulator array ends at the sum of the whole kernel matrix of its two sample matrices. -/
theorem arr2_value (c : Dev nD) (j : S1x1.Idx) :
    ((dat2 (F := Ideal) V c).arrAt 2 cfg2.N : Buf (Elt Ideal) ((c : Thread nD τ).loc main_v4)) j = pairSum (V c main_arg1) (V c main_arg0) := by
  rw [final2 V c, accAt2_last V c _ j]
  unfold tileTerm2
  simp only [iblk2_0_tile, iblk2_1_tile]
  rw [← Fin.sum_congr' _ (N_2.symm : 64 = cfg2.N)]
  exact sum_tiles _ _

end Cert.KernelIdeal.Hand

end
-- ==== Proof.Tail.lean ====
/-
  What the program ends with.

  No host operation and no launch writes an argument, so both sample matrices end as launched. On the extended reals
  the three accumulator arrays, reshaped to scalars, are the three whole-matrix sums; the last stretch of host
  operations divides each by 8192², adds the first two and subtracts twice the third: the result buffer ends at the
  statistic of the two sample matrices.
-/
import proofs.«145707_j71536975282442_1_alg».proof.Proof.Run
import proofs.«145707_j71536975282442_1_alg».proof.Proof.Sums
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo

section Args

variable {F : FTy → Type} [FloatOps F]
variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A host stretch leaves every buffer it does not write as it was. -/
theorem W6_of (c : Dev nD) (r : Ref sig .tc) (h : r ∉ hostOps3_W) : W6 m ρ c r = W5 m ρ c r :=
  StableHlo.after_of_writes_sub hostOps3 _ hostOps3_writes h
theorem W4_of (c : Dev nD) (r : Ref sig .tc) (h : r ∉ hostOps2_W) : W4 m ρ c r = W3 m ρ c r :=
  StableHlo.after_of_writes_sub hostOps2 _ hostOps2_writes h
theorem W2_of (c : Dev nD) (r : Ref sig .tc) (h : r ∉ hostOps1_W) : W2 m ρ c r = W1 m ρ c r :=
  StableHlo.after_of_writes_sub hostOps1 _ hostOps1_writes h

/-- A buffer no item writes holds its launch contents at every boundary. -/
theorem W2_launch (c : Dev nD) (r : Ref sig .tc) (h1 : r ∉ hostOps1_W) (h0 : r ≠ main_v0) : W2 m ρ c r = m ((c : Thread nD τ).loc r) :=
  (W2_of m ρ c r h1).trans ((W1_of_ne m ρ c r h0).trans rfl)
theorem W4_launch (c : Dev nD) (r : Ref sig .tc) (h2 : r ∉ hostOps2_W) (hv2 : r ≠ main_v2) (h1 : r ∉ hostOps1_W) (h0 : r ≠ main_v0) :
    W4 m ρ c r = m ((c : Thread nD τ).loc r) :=
  (W4_of m ρ c r h2).trans ((W3_of_ne m ρ c r hv2).trans (W2_launch m ρ c r h1 h0))
theorem W6_launch (c : Dev nD) (r : Ref sig .tc) (h3 : r ∉ hostOps3_W) (hv4 : r ≠ main_v4) (h2 : r ∉ hostOps2_W) (hv2 : r ≠ main_v2)
    (h1 : r ∉ hostOps1_W) (h0 : r ≠ main_v0) : W6 m ρ c r = m ((c : Thread nD τ).loc r) :=
  (W6_of m ρ c r h3).trans ((W5_of_ne m ρ c r hv4).trans (W4_launch m ρ c r h2 hv2 h1 h0))

theorem W6_arg0 (c : Dev nD) : W6 m ρ c main_arg0 = m ((c : Thread nD τ).loc main_arg0) :=
  W6_launch m ρ c main_arg0 (by decide) (by decide) (by decide) (by decide) (by decide) (by decide)
theorem W6_arg1 (c : Dev nD) : W6 m ρ c main_arg1 = m ((c : Thread nD τ).loc main_arg1) :=
  W6_launch m ρ c main_arg1 (by decide) (by decide) (by decide) (by decide) (by decide) (by decide)

end Args

section Result

open Cert.MMD

variable (m : (ℓ : Loc nD τ sig) → Buf (Elt Ideal) ℓ) (ρ : Dev nD → PrngReg)

/-- Launch 0's sum, reshaped to a scalar by the first host stretch. -/
theorem W2_v1 (c : Dev nD) (i : S_.Idx) :
    W2 m ρ c main_v1 i = pairSum (m ((c : Thread nD τ).loc main_arg1)) (m ((c : Thread nD τ).loc main_arg1)) := by
  have h : W2 m ρ c main_v1 = fun i => shapeCast S_ (W1 m ρ c main_v0) shapeCasts_S1x1_S_ i := by
    show StableHlo.after hostOps1 (W1 m ρ c) (Proc.devRef .tc main_v1) = _
    after_results
    rfl
  rw [h]
  show W1 m ρ c main_v0 _ = _
  exact (congrFun (W1_out m ρ c) _).trans (arr0_value (V0 m ρ) c _)

/-- Launch 1's sum, reshaped to a scalar by the second host stretch. -/
theorem W4_v3 (c : Dev nD) (i : S_.Idx) :
    W4 m ρ c main_v3 i = pairSum (m ((c : Thread nD τ).loc main_arg0)) (m ((c : Thread nD τ).loc main_arg0)) := by
  have h : W4 m ρ c main_v3 = fun i => shapeCast S_ (W3 m ρ c main_v2) shapeCasts_S1x1_S_ i := by
    show StableHlo.after hostOps2 (W3 m ρ c) (Proc.devRef .tc main_v3) = _
    after_results
    rfl
  rw [h]
  show W3 m ρ c main_v2 _ = _
  refine (congrFun (W3_out m ρ c) _).trans ((arr1_value (V2 m ρ) c _).trans ?_)
  rw [show V2 m ρ c main_arg0 = m ((c : Thread nD τ).loc main_arg0) from W2_launch m ρ c main_arg0 (by decide) (by decide)]

/-- Launch 2's sum, as its accumulator array holds it. -/
theorem W5_v4 (c : Dev nD) (j : S1x1.Idx) :
    W5 m ρ c main_v4 j = pairSum (m ((c : Thread nD τ).loc main_arg1)) (m ((c : Thread nD τ).loc main_arg0)) := by
  refine (congrFun (W5_out m ρ c) _).trans ((arr2_value (V4 m ρ) c _).trans ?_)
  rw [show V4 m ρ c main_arg1 = m ((c : Thread nD τ).loc main_arg1) from W4_launch m ρ c main_arg1 (by decide) (by decide) (by decide) (by decide),
    show V4 m ρ c main_arg0 = m ((c : Thread nD τ).loc main_arg0) from W4_launch m ρ c main_arg0 (by decide) (by decide) (by decide) (by decide)]

/-- The result buffer ends at the statistic of the two sample matrices. -/
theorem W6_result (c : Dev nD) :
    W6 m ρ c main_v11 = fun _ => mmd (m ((c : Thread nD τ).loc main_arg1)) (m ((c : Thread nD τ).loc main_arg0)) := by
  have h1 : W5 m ρ c main_v1 = W2 m ρ c main_v1 :=
    (W5_of_ne m ρ c main_v1 (by decide)).trans ((W4_of m ρ c main_v1 (by decide)).trans (W3_of_ne m ρ c main_v1 (by decide)))
  have h3 : W5 m ρ c main_v3 = W4 m ρ c main_v3 := W5_of_ne m ρ c main_v3 (by decide)
  show StableHlo.after hostOps3 (W5 m ρ c) (Proc.devRef .tc main_v11) = _
  after_results
  rw [h1, h3]
  funext i
  simp only [subf, addf, mulf, Host.divf, constant, Ideal.subf_def, Ideal.addf_def, Ideal.mulf_def, Ideal.hostDivf_def, Ideal.ofBits_def]
  rw [W2_v1 m ρ c i, W4_v3 m ρ c i]
  unfold shapeCast
  rw [W5_v4 m ρ c _]
  rfl

end Result

end Cert.KernelIdeal.Hand

end
-- ==== Proof.RefValue.lean ====
/-
  The reference program's value is the statistic of the specification.

  Its run forms, for each of the three pairs of sample matrices (a, b) = (x, x), (y, y), (x, y), the matrix with the
  entry exp(-((|a_i|² + |b_j|²) - 2·⟨a_i, b_j⟩) / 128²) at (i, j): the squared norms as row sums of squares starting
  from zero, spread along a column and along a row; the inner products as the product of a with the transpose of b.
  It then sums each matrix over both axes starting from zero, divides by 8192², and combines the three means as
  (mxx + myy) - 2·mxy. Stage by stage this is the specification's `mmd`.
-/
import proofs.«145707_j71536975282442_1_alg».proof.Proof.Gen.ReferenceIdeal.Read
import proofs.«145707_j71536975282442_1_alg».proof.Proof.Spec

noncomputable section

open scoped BigOperators

namespace Cert.ReferenceIdeal.RefValue

open Cert.ReferenceIdeal Cert.ReferenceIdeal.Gen Cert.ReferenceIdeal.Read Cert.MMD
open Idealize.ShloMosaic Idealize.ShloMosaic.ValueIdx

/-- A sample matrix as the reference program holds it: 8192 rows of 128 ideal values. -/
abbrev Mat : Type := (⟨S8192x128, .f32⟩ : BufTy).Contents (Elt Ideal)

/-! ## The pair (x, y): first operand the program's second argument, second operand its first -/

/-- The first operand's row sums of squares are its squared norms. -/
theorem sq37 (x : Mat) (r : Fin 8192) : val_main_v37 (F := Ideal) x (ix1 r) = sqn x r := by
  rw [val_main_v37_apply, val_main_cst_7_apply, Ideal.ofBits_def, Ideal.ofBits_zero_f32, zero_add]
  unfold sqn
  refine Finset.sum_congr rfl fun k _ => ?_
  have e : idx_main_v37 (ix1 r) k = ix2 r k :=
    funext fun a => Fin.ext (by match a with | ⟨0, _⟩ => rfl | ⟨1, _⟩ => rfl)
  rw [val_main_v36_apply, Ideal.mulf_def, e]

/-- The second operand's row sums of squares are its squared norms. -/
theorem sq39 (x : Mat) (r : Fin 8192) : val_main_v39 (F := Ideal) x (ix1 r) = sqn x r := by
  rw [val_main_v39_apply, val_main_cst_8_apply, Ideal.ofBits_def, Ideal.ofBits_zero_f32, zero_add]
  unfold sqn
  refine Finset.sum_congr rfl fun k _ => ?_
  have e : idx_main_v39 (ix1 r) k = ix2 r k :=
    funext fun a => Fin.ext (by match a with | ⟨0, _⟩ => rfl | ⟨1, _⟩ => rfl)
  rw [val_main_v38_apply, Ideal.mulf_def, e]

/-- Spread along a column and then across the rows, entry (p, q) holds the squared norm of row p. -/
theorem col42 (x : Mat) (p q : Fin 8192) : val_main_v42 (F := Ideal) x (ix2 p q) = sqn x p := by
  have e : idx_main_v40 (idx_main_v42 (ix2 p q)) = ix1 p :=
    funext fun a => Fin.ext (by match a with | ⟨0, _⟩ => rfl)
  rw [val_main_v42_apply, val_main_v40_apply, e, sq37]

/-- Spread along a row and then down the columns, entry (p, q) holds the squared norm of row q. -/
theorem row43 (x : Mat) (p q : Fin 8192) : val_main_v43 (F := Ideal) x (ix2 p q) = sqn x q := by
  have e : idx_main_v41 (idx_main_v43 (ix2 p q)) = ix1 q :=
    funext fun a => Fin.ext (by match a with | ⟨0, _⟩ => rfl)
  rw [val_main_v43_apply, val_main_v41_apply, e, sq39]

/-- The product with the transpose holds at (p, q) the inner product of row p of the first operand with row q of the
    second. -/
theorem dot46 (x0 x1 : Mat) (p q : Fin 8192) : val_main_v46 (F := Ideal) x0 x1 (ix2 p q) = dot x1 x0 p q := by
  rw [val_main_v46_apply]
  unfold dot
  refine Finset.sum_congr rfl fun k _ => ?_
  have el : lidx_main_v46 (ix2 p q) k = ix2 p k :=
    funext fun a => Fin.ext (by match a with | ⟨0, _⟩ => rfl | ⟨1, _⟩ => rfl)
  have er : idx_main_v45 (ridx_main_v46 (ix2 p q) k) = ix2 q k :=
    funext fun a => Fin.ext (by match a with | ⟨0, _⟩ => rfl | ⟨1, _⟩ => rfl)
  rw [val_main_v45_apply, el, er]

/-- The exponentiated matrix is the kernel matrix of the pair. -/
theorem kern53 (x0 x1 : Mat) (p q : Fin 8192) : val_main_v53 (F := Ideal) x0 x1 (ix2 p q) = kern x1 x0 p q := by
  rw [val_main_v53_apply, val_main_v52_apply, val_main_v50_apply, val_main_v49_apply, val_main_v44_apply,
    val_main_v48_apply, val_main_v47_apply, val_main_cst_9_apply, val_main_v51_apply, val_main_cst_10_apply,
    col42, row43, dot46]
  simp only [Ideal.hostUnary_exp_def, Ideal.hostDivf_def, Ideal.hostNegf_def, Ideal.negf_def, Ideal.subf_def,
    Ideal.addf_def, Ideal.mulf_def, Ideal.ofBits_def]
  unfold kern entry
  rfl

/-- Summed over both axes from zero, it is the pair's sum. -/
theorem sum59 (x0 x1 : Mat) (i : S_.Idx) : val_main_v59 (F := Ideal) x0 x1 i = pairSum x1 x0 := by
  rw [val_main_v59_apply, val_main_cst_15_apply, Ideal.ofBits_def, Ideal.ofBits_zero_f32, zero_add, sum_idx2]
  unfold pairSum
  exact Finset.sum_congr rfl fun p _ => Finset.sum_congr rfl fun q _ => kern53 x0 x1 p q

/-! ## The pairs (x, x) and (y, y)

  The program forms these two matrices by the same operations as the mixed pair's, applied to one matrix twice: as
  terms they are the mixed pair's sum at equal arguments. -/

/-- The sum for the pair (x, x). -/
theorem sum54 (x : Mat) (i : S_.Idx) : val_main_v54 (F := Ideal) x i = pairSum x x :=
  (congrFun (show val_main_v54 (F := Ideal) x = val_main_v59 (F := Ideal) x x from rfl) i).trans (sum59 x x i)

/-- The sum for the pair (y, y). -/
theorem sum56 (x : Mat) (i : S_.Idx) : val_main_v56 (F := Ideal) x i = pairSum x x :=
  (congrFun (show val_main_v56 (F := Ideal) x = val_main_v59 (F := Ideal) x x from rfl) i).trans (sum59 x x i)

/-! ## The statistic -/

/-- The reference program's result is the statistic of its second argument against its first. -/
theorem ref_is_mmd (x0 x1 : (⟨Cert.ReferenceIdeal.S8192x128, .f32⟩ : BufTy).Contents (Elt Ideal)) :
    Cert.ReferenceIdeal.Read.val_main_v62 (F := Ideal) x0 x1 = fun _ => Cert.MMD.mmd x1 x0 := by
  funext i
  rw [val_main_v62_apply, val_main_v58_apply, val_main_v61_apply, val_main_v55_apply, val_main_v57_apply,
    val_main_v60_apply, val_main_cst_12_apply, val_main_cst_14_apply, val_main_cst_16_apply, val_main_cst_17_apply,
    sum54, sum56, sum59]
  simp only [Ideal.hostDivf_def, Ideal.subf_def, Ideal.addf_def, Ideal.mulf_def, Ideal.ofBits_def]
  unfold mmd mmdOf
  rfl

end Cert.ReferenceIdeal.RefValue

end
-- ==== Proof.lean ====
/-
  The proof of `Cert.Claim`: the tiled kernel's statistic equals the reference's, on the extended reals.

  The statistic of two sample matrices x, y (8192 rows of 128) is
      mean k(x,x) + mean k(y,y) - 2 · mean k(x,y),   k(a,b)_ij = exp(-((|a_i|² + |b_j|²) - 2⟨a_i, b_j⟩) / 128²).
  The reference forms each 8192×8192 kernel matrix whole and sums it. The kernel program launches one tile-sum
  kernel three times, for (x,x), (y,y) and (x,y): over an 8×8 grid of 1024×1024 tiles it keeps a running 1×1
  accumulator, reset at the first grid point and increased by the tile's sum at every point, written back after the
  last; the host then divides the three sums by 8192² and combines them exactly as the reference does.
  On the extended reals a change of float format is the identity, the matrix unit's product into a zero accumulator is
  the host's product, `0 - s` is `-s`, and a sum may be taken tile by tile in any order (addition there is commutative
  and associative, with no finiteness needed); so each launch's accumulator ends at the whole matrix's sum and the two
  programs end with the same number. The precondition is never opened.

  The frames: each launch is one segment of @main's run, entered from and left at known contents of every unscoped
  buffer; the two launches that read one sample matrix through both input windows split that buffer's full share in
  two at entry and join it back at exit. No item writes an argument, so both end as launched. The reference is a host
  program; its frame is its run with the result dropped. The ideal pass rewrote nothing, so `preserves` is `True`.
-/
import proofs.«145707_j71536975282442_1_alg».proof.Defs
import proofs.«145707_j71536975282442_1_alg».proof.Proof.Gen.Kernel
import proofs.«145707_j71536975282442_1_alg».proof.Proof.Gen.KernelIdeal
import proofs.«145707_j71536975282442_1_alg».proof.Proof.Gen.ReferenceIdeal
import proofs.«145707_j71536975282442_1_alg».proof.Proof.Gen.Pre_finite_inputs
import proofs.«145707_j71536975282442_1_alg».proof.Proof.Gen.ReferenceIdeal.Run
import proofs.«145707_j71536975282442_1_alg».proof.Proof.Gen.ReferenceIdeal.Read
import proofs.«145707_j71536975282442_1_alg».proof.Proof.KTail
import proofs.«145707_j71536975282442_1_alg».proof.Proof.Tail
import proofs.«145707_j71536975282442_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves both sample matrices as launched. -/
theorem frame_k : Cert.frame_Kernel := fun m ρ _ =>
  (θ_run Cert.Kernel.defs _ _).mono (fun _ h c =>
    ⟨(h c _ (Cert.Kernel.Hand.mem_uc Cert.Kernel.main_arg0 (by decide))).trans (Cert.Kernel.Hand.W6_arg0 m ρ c),
      (h c _ (Cert.Kernel.Hand.mem_uc Cert.Kernel.main_arg1 (by decide))).trans (Cert.Kernel.Hand.W6_arg1 m ρ c)⟩)
    (Cert.Kernel.Hand.run_main (F := Bits) m ρ)

/-- So does the idealized kernel program. -/
theorem frame_ki : Cert.frame_KernelIdeal := fun m ρ _ =>
  (θ_run Cert.KernelIdeal.defs _ _).mono (fun _ h c =>
    ⟨(h c _ (Cert.KernelIdeal.Hand.mem_uc Cert.KernelIdeal.main_arg0 (by decide))).trans (Cert.KernelIdeal.Hand.W6_arg0 m ρ c),
      (h c _ (Cert.KernelIdeal.Hand.mem_uc Cert.KernelIdeal.main_arg1 (by decide))).trans (Cert.KernelIdeal.Hand.W6_arg1 m ρ c)⟩)
    (Cert.KernelIdeal.Hand.run_main (F := Ideal) m ρ)

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals both programs end with the statistic of the two sample matrices. -/
theorem algebraic : Cert.algebraic_KernelIdeal_ReferenceIdeal := by
  intro m ρ m' ρ' _ hagree
  refine ⟨fun c => fun _ => Cert.MMD.mmd (m ((c : Thread Cert.KernelIdeal.nD Cert.KernelIdeal.τ).loc Cert.KernelIdeal.main_arg1))
    (m ((c : Thread Cert.KernelIdeal.nD Cert.KernelIdeal.τ).loc Cert.KernelIdeal.main_arg0)), ?_, ?_⟩
  · exact (θ_run Cert.KernelIdeal.defs _ _).mono (fun _ h c =>
      ⟨(h c _ (Cert.KernelIdeal.Hand.mem_uc Cert.KernelIdeal.main_v11 (by decide))).trans (Cert.KernelIdeal.Hand.W6_result m ρ c),
        (h c _ (Cert.KernelIdeal.Hand.mem_uc Cert.KernelIdeal.main_arg0 (by decide))).trans (Cert.KernelIdeal.Hand.W6_arg0 m ρ c),
        (h c _ (Cert.KernelIdeal.Hand.mem_uc Cert.KernelIdeal.main_arg1 (by decide))).trans (Cert.KernelIdeal.Hand.W6_arg1 m ρ c)⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v62_eq, Cert.ReferenceIdeal.RefValue.ref_is_mmd, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
